-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S512x256 : Shape := ⟨2, ![512, 256]⟩
abbrev S512 : Shape := ⟨1, ![512]⟩
abbrev S512x512 : Shape := ⟨2, ![512, 512]⟩
abbrev S1x512 : Shape := ⟨2, ![1, 512]⟩
abbrev S1 : Shape := ⟨1, ![1]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x512 .f32) (main_arg8 : FVec F S1 .f32) (main_v33 : IVec S_ 1) : IVec S_ 1 :=
  let main_v34 : FVec F S1x512 .f32 := Host.absf main_arg7
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S1x512 .f32) (main_arg8 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S1024x256 .f32) (main_arg1 : FVec F S512x256 .f32) (main_arg2 : FVec F S512 .f32) (main_arg3 : FVec F S512x512 .f32) (main_arg4 : FVec F S512 .f32) (main_arg5 : FVec F S512x512 .f32) (main_arg6 : FVec F S512 .f32) (main_arg7 : FVec F S1x512 .f32) (main_arg8 : FVec F S1 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S1024x256 : Shape := ⟨2, ![1024, 256]⟩
abbrev S512x256 : Shape := ⟨2, ![512, 256]⟩
abbrev S512 : Shape := ⟨1, ![512]⟩
abbrev S512x512 : Shape := ⟨2, ![512, 512]⟩
abbrev S1x512 : Shape := ⟨2, ![1, 512]⟩
abbrev S1 : Shape := ⟨1, ![1]⟩
abbrev S1024x1 : Shape := ⟨2, ![1024, 1]⟩
abbrev S64x256 : Shape := ⟨2, ![64, 256]⟩
abbrev S64x1 : Shape := ⟨2, ![64, 1]⟩
abbrev S256x512 : Shape := ⟨2, ![256, 512]⟩
abbrev S64x512 : Shape := ⟨2, ![64, 512]⟩
abbrev S128x256 : Shape := ⟨2, ![128, 256]⟩
abbrev S64x128 : Shape := ⟨2, ![64, 128]⟩
abbrev S128x128 : Shape := ⟨2, ![128, 128]⟩
abbrev S1x128x128 : Shape := ⟨3, ![1, 128, 128]⟩
abbrev S64x1x128 : Shape := ⟨3, ![64, 1, 128]⟩
abbrev S64x128x128 : Shape := ⟨3, ![64, 128, 128]⟩
abbrev S128x512 : Shape := ⟨2, ![128, 512]⟩
abbrev S512x1 : Shape := ⟨2, ![512, 1]⟩
abbrev S1x128 : Shape := ⟨2, ![1, 128]⟩
abbrev S1x1x128 : Shape := ⟨3, ![1, 1, 128]⟩
abbrev S1x1 : Shape := ⟨2, ![1, 1]⟩
abbrev S1024 : Shape := ⟨1, ![1024]⟩

abbrev nBuf : Space → Nat
  | .hbm => 11
  | .vmem => 12
  | .smem => 0
  | _ => 0

abbrev bufTy : (tb : Table) → Fin (tcTables nBuf tb) → BufTy
  | .hbm, ⟨0, _⟩ => ⟨S1024x256, .f32⟩
  | .hbm, ⟨1, _⟩ => ⟨S512x256, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S1x512, .f32⟩
  | .hbm, ⟨8, _⟩ => ⟨S1, .f32⟩
  | .hbm, ⟨9, _⟩ => ⟨S1024x1, .f32⟩
  | .hbm, ⟨10, _⟩ => ⟨S1024, .f32⟩
  | .local _ .vmem, ⟨0, _⟩ => ⟨S64x256, .f32⟩
  | .local _ .vmem, ⟨1, _⟩ => ⟨S64x256, .f32⟩
  | .local _ .vmem, ⟨2, _⟩ => ⟨S512x256, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S1x512, .f32⟩
  | .local _ .vmem, ⟨9, _⟩ => ⟨S1, .f32⟩
  | .local _ .vmem, ⟨10, _⟩ => ⟨S64x1, .f32⟩
  | .local _ .vmem, ⟨11, _⟩ => ⟨S64x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S64x256_S64x256_0_0 : ∀ a, (![0, 0] : Fin 2 → Nat) a + S64x256.size a ≤ S64x256.size a
  h_S64x256 : 0 < S64x256.numel
  inb_S512x256_S512x256_0_0 : ∀ a, (![0, 0] : Fin 2 → Nat) a + S512x256.size a ≤ S512x256.size a
  h_S512x256 : 0 < S512x256.numel
  inb_S512_S512_0 : ∀ a, (![0] : Fin 1 → Nat) a + S512.size a ≤ S512.size a
  h_S512 : 0 < S512.numel
  bitsLt_bf16_f32 : FTy.bits .bf16 < FTy.bits .f32
  transposes_S512x256_p1_0_S256x512 : S512x256.Transposes [1, 0] S256x512
  slices_S512x256_o0_0_S128x256 : S512x256.Slices ![0, 0] S128x256
  slices_S128x256_o0_0_S128x128 : S128x256.Slices ![0, 0] S128x128
  slices_S64x256_o0_0_S64x128 : S64x256.Slices ![0, 0] S64x128
  shapeCasts_S128x128_S1x128x128 : S128x128.ShapeCasts S1x128x128
  shapeCasts_S64x128_S64x1x128 : S64x128.ShapeCasts S64x1x128
  broadcasts_S1x128x128_S64x128x128 : S1x128x128.Broadcasts S64x128x128
  broadcasts_S64x1x128_S64x128x128 : S64x1x128.Broadcasts S64x128x128
  reduces_S64x128x128_S64x128 : S64x128x128.Reduces [2] S64x128
  slices_S128x256_o0_128_S128x128 : S128x256.Slices ![0, 128] S128x128
  slices_S64x256_o0_128_S64x128 : S64x256.Slices ![0, 128] S64x128
  slices_S512x256_o128_0_S128x256 : S512x256.Slices ![128, 0] S128x256
  slices_S512x256_o256_0_S128x256 : S512x256.Slices ![256, 0] S128x256
  slices_S512x256_o384_0_S128x256 : S512x256.Slices ![384, 0] S128x256
  concatenates_S64x128_S64x128_S64x128_S64x128_S64x512_d1 : Shape.Concatenates [S64x128, S64x128, S64x128, S64x128] S64x512 1
  shapeCasts_S512_S1x512 : S512.ShapeCasts S1x512
  broadcasts_S1x512_S64x512 : S1x512.Broadcasts S64x512
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  slices_S512x512_o0_0_S128x512 : S512x512.Slices ![0, 0] S128x512
  slices_S128x512_o0_0_S128x128 : S128x512.Slices ![0, 0] S128x128
  slices_S64x512_o0_0_S64x128 : S64x512.Slices ![0, 0] S64x128
  slices_S128x512_o0_128_S128x128 : S128x512.Slices ![0, 128] S128x128
  slices_S64x512_o0_128_S64x128 : S64x512.Slices ![0, 128] S64x128
  slices_S128x512_o0_256_S128x128 : S128x512.Slices ![0, 256] S128x128
  slices_S64x512_o0_256_S64x128 : S64x512.Slices ![0, 256] S64x128
  slices_S128x512_o0_384_S128x128 : S128x512.Slices ![0, 384] S128x128
  slices_S64x512_o0_384_S64x128 : S64x512.Slices ![0, 384] S64x128
  slices_S512x512_o128_0_S128x512 : S512x512.Slices ![128, 0] S128x512
  slices_S512x512_o256_0_S128x512 : S512x512.Slices ![256, 0] S128x512
  slices_S512x512_o384_0_S128x512 : S512x512.Slices ![384, 0] S128x512
  inb_S1x512_S1x512_0_0 : ∀ a, (![0, 0] : Fin 2 → Nat) a + S1x512.size a ≤ S1x512.size a
  h_S1x512 : 0 < S1x512.numel
  inb_S1_S1_0 : ∀ a, (![0] : Fin 1 → Nat) a + S1.size a ≤ S1.size a
  h_S1 : 0 < S1.numel
  transposes_S1x512_p1_0_S512x1 : S1x512.Transposes [1, 0] S512x1
  slices_S1x512_o0_0_S1x128 : S1x512.Slices ![0, 0] S1x128
  shapeCasts_S1x128_S1x1x128 : S1x128.ShapeCasts S1x1x128
  broadcasts_S1x1x128_S64x1x128 : S1x1x128.Broadcasts S64x1x128
  reduces_S64x1x128_S64x1 : S64x1x128.Reduces [2] S64x1
  slices_S1x512_o0_128_S1x128 : S1x512.Slices ![0, 128] S1x128
  slices_S1x512_o0_256_S1x128 : S1x512.Slices ![0, 256] S1x128
  slices_S1x512_o0_384_S1x128 : S1x512.Slices ![0, 384] S1x128
  shapeCasts_S1_S1x1 : S1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  shapeCasts_S1024x1_S1024 : S1024x1.ShapeCasts S1024
  dot_S64x256_S256x512_S64x512_1_0_0_1_n_n_wf : DotDims.WF S64x256 S256x512 S64x512 [1] [0] [0] [1] [] []
  dot_S64x512_S512x512_S64x512_1_0_0_1_n_n_wf : DotDims.WF S64x512 S512x512 S64x512 [1] [0] [0] [1] [] []
  dot_S64x512_S512x1_S64x1_1_0_0_1_n_n_wf : DotDims.WF S64x512 S512x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S1024x256.size a
  hwx0_0 : ∀ i : grid0.Coords, EltTy.bits .f32 = 32 ∨ (Rect.block (s := S1024x256) S64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S1024x1.size a
  hwx0_9 : ∀ i : grid0.Coords, EltTy.bits .f32 = 32 ∨ (Rect.block (s := S1024x1) S64x1.size (cc0_transform_9 i) (hinb0_9 i)).WholeWords (EltTy.packing .f32)

variable [Facts₀]

def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x1_S64x1_1_0_0_1_n_n : DotDims S64x512 S512x1 S64x1 where
  lhsContracting := [1]
  rhsContracting := [0]
  lhsNonContracting := [0]
  rhsNonContracting := [1]
  lhsBatch := []
  rhsBatch := []
  wf := dot_S64x512_S512x1_S64x1_1_0_0_1_n_n_wf

abbrev win0_0 : Pipeline.Window sig grid0 :=
  Pipeline.Window.ofSpec (Memref.whole main_arg0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S64x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1024x256 : Shape := ⟨2, ![1024, 256]⟩
abbrev S512x256 : Shape := ⟨2, ![512, 256]⟩
abbrev S512 : Shape := ⟨1, ![512]⟩
abbrev S512x512 : Shape := ⟨2, ![512, 512]⟩
abbrev S1x512 : Shape := ⟨2, ![1, 512]⟩
abbrev S1 : Shape := ⟨1, ![1]⟩
abbrev S1024x512 : Shape := ⟨2, ![1024, 512]⟩
abbrev S1x512x256 : Shape := ⟨3, ![1, 512, 256]⟩
abbrev S1024x1x256 : Shape := ⟨3, ![1024, 1, 256]⟩
abbrev S1024x512x256 : Shape := ⟨3, ![1024, 512, 256]⟩
abbrev S_ : Shape := ⟨0, ![]⟩
abbrev S1x512x512 : Shape := ⟨3, ![1, 512, 512]⟩
abbrev S1024x1x512 : Shape := ⟨3, ![1024, 1, 512]⟩
abbrev S1024x512x512 : Shape := ⟨3, ![1024, 512, 512]⟩
abbrev S1024x1 : Shape := ⟨2, ![1024, 1]⟩
abbrev S1x1x512 : Shape := ⟨3, ![1, 1, 512]⟩
abbrev S1x1 : Shape := ⟨2, ![1, 1]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S512x256, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S1x512, .f32⟩
  | .hbm, ⟨8, _⟩ => ⟨S1, .f32⟩
  | .hbm, ⟨9, _⟩ => ⟨S1024x512, .f32⟩
  | .hbm, ⟨10, _⟩ => ⟨S1x512x256, .f32⟩
  | .hbm, ⟨11, _⟩ => ⟨S1024x1x256, .f32⟩
  | .hbm, ⟨12, _⟩ => ⟨S1024x512x256, .f32⟩
  | .hbm, ⟨13, _⟩ => ⟨S1024x512x256, .f32⟩
  | .hbm, ⟨14, _⟩ => ⟨S1024x512x256, .f32⟩
  | .hbm, ⟨15, _⟩ => ⟨S_, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1x512, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S1x512x512, .f32⟩
  | .hbm, ⟨29, _⟩ => ⟨S1024x1x512, .f32⟩
  | .hbm, ⟨30, _⟩ => ⟨S1024x512x512, .f32⟩
  | .hbm, ⟨31, _⟩ => ⟨S1024x512x512, .f32⟩
  | .hbm, ⟨32, _⟩ => ⟨S1024x512x512, .f32⟩
  | .hbm, ⟨33, _⟩ => ⟨S_, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S1x512, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S1x512x512, .f32⟩
  | .hbm, ⟨47, _⟩ => ⟨S1024x1x512, .f32⟩
  | .hbm, ⟨48, _⟩ => ⟨S1024x512x512, .f32⟩
  | .hbm, ⟨49, _⟩ => ⟨S1024x512x512, .f32⟩
  | .hbm, ⟨50, _⟩ => ⟨S1024x512x512, .f32⟩
  | .hbm, ⟨51, _⟩ => ⟨S_, .f32⟩
  | .hbm, ⟨52, _⟩ => ⟨S1024x512, .f32⟩
  | .hbm, ⟨53, _⟩ => ⟨S_, .f32⟩
  | .hbm, ⟨54, _⟩ => ⟨S1024x512, .f32⟩
  | .hbm, ⟨55, _⟩ => ⟨S1024x512, .f32⟩
  | .hbm, ⟨56, _⟩ => ⟨S_, .f32⟩
  | .hbm, ⟨57, _⟩ => ⟨S1024x512, .f32⟩
  | .hbm, ⟨58, _⟩ => ⟨S1024x512, .f32⟩
  | .hbm, ⟨59, _⟩ => ⟨S1024x512, .f32⟩
  | .hbm, ⟨60, _⟩ => ⟨S1x512, .f32⟩
  | .hbm, ⟨61, _⟩ => ⟨S1024x512, .f32⟩
  | .hbm, ⟨62, _⟩ => ⟨S1024x512, .f32⟩
  | .hbm, ⟨63, _⟩ => ⟨S1024x1, .f32⟩
  | .hbm, ⟨64, _⟩ => ⟨S1x1x512, .f32⟩
  | .hbm, ⟨65, _⟩ => ⟨S1024x1x512, .f32⟩
  | .hbm, ⟨66, _⟩ => ⟨S1024x1x512, .f32⟩
  | .hbm, ⟨67, _⟩ => ⟨S1024x1x512, .f32⟩
  | .hbm, ⟨68, _⟩ => ⟨S_, .f32⟩
  | .hbm, ⟨69, _⟩ => ⟨S1024x1, .f32⟩
  | .hbm, ⟨70, _⟩ => ⟨S_, .f32⟩
  | .hbm, ⟨71, _⟩ => ⟨S1024x1, .f32⟩
  | .hbm, ⟨72, _⟩ => ⟨S1024x1, .f32⟩
  | .hbm, ⟨73, _⟩ => ⟨S_, .f32⟩
  | .hbm, ⟨74, _⟩ => ⟨S1024x1, .f32⟩
  | .hbm, ⟨75, _⟩ => ⟨S1024x1, .f32⟩
  | .hbm, ⟨76, _⟩ => ⟨S1024x1, .f32⟩
  | .hbm, ⟨77, _⟩ => ⟨S1x1, .f32⟩
  | .hbm, ⟨78, _⟩ => ⟨S1024x1, .f32⟩
  | .hbm, ⟨79, _⟩ => ⟨S1024x1, .f32⟩
  | .hbm, ⟨80, _⟩ => ⟨S1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  bcast_S512x256_S1x512x256_1_2 : S512x256.BroadcastsInDim S1x512x256 (![1, 2] : Fin 2 → Fin S1x512x256.rank)
  bcast_S1024x256_S1024x1x256_0_2 : S1024x256.BroadcastsInDim S1024x1x256 (![0, 2] : Fin 2 → Fin S1024x1x256.rank)
  bcast_S1x512x256_S1024x512x256_0_1_2 : S1x512x256.BroadcastsInDim S1024x512x256 (![0, 1, 2] : Fin 3 → Fin S1024x512x256.rank)
  bcast_S1024x1x256_S1024x512x256_0_1_2 : S1024x1x256.BroadcastsInDim S1024x512x256 (![0, 1, 2] : Fin 3 → Fin S1024x512x256.rank)
  reducesTo_S1024x512x256_S1024x512_d2 : S1024x512x256.ReducesTo [2] S1024x512
  h_S_ : 0 < S_.numel
  bcast_S_S1024x512 : S_.BroadcastsInDim S1024x512 (![] : Fin 0 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S512x512_S1x512x512_1_2 : S512x512.BroadcastsInDim S1x512x512 (![1, 2] : Fin 2 → Fin S1x512x512.rank)
  bcast_S1024x512_S1024x1x512_0_2 : S1024x512.BroadcastsInDim S1024x1x512 (![0, 2] : Fin 2 → Fin S1024x1x512.rank)
  bcast_S1x512x512_S1024x512x512_0_1_2 : S1x512x512.BroadcastsInDim S1024x512x512 (![0, 1, 2] : Fin 3 → Fin S1024x512x512.rank)
  bcast_S1024x1x512_S1024x512x512_0_1_2 : S1024x1x512.BroadcastsInDim S1024x512x512 (![0, 1, 2] : Fin 3 → Fin S1024x512x512.rank)
  reducesTo_S1024x512x512_S1024x512_d2 : S1024x512x512.ReducesTo [2] S1024x512
  bcast_S1x512_S1x1x512_1_2 : S1x512.BroadcastsInDim S1x1x512 (![1, 2] : Fin 2 → Fin S1x1x512.rank)
  bcast_S1x1x512_S1024x1x512_0_1_2 : S1x1x512.BroadcastsInDim S1024x1x512 (![0, 1, 2] : Fin 3 → Fin S1024x1x512.rank)
  reducesTo_S1024x1x512_S1024x1_d2 : S1024x1x512.ReducesTo [2] S1024x1
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  dot_S1024x256_S512x256_S1024x512_1_1_0_0_n_n_wf : DotDims.WF S1024x256 S512x256 S1024x512 [1] [1] [0] [0] [] []
  dot_S1024x512_S512x512_S1024x512_1_1_0_0_n_n_wf : DotDims.WF S1024x512 S512x512 S1024x512 [1] [1] [0] [0] [] []
  dot_S1024x512_S1x512_S1024x1_1_1_0_0_n_n_wf : DotDims.WF S1024x512 S1x512 S1024x1 [1] [1] [0] [0] [] []

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x512_S1x512_S1024x1_1_1_0_0_n_n : DotDims S1024x512 S1x512 S1024x1 where
  lhsContracting := [1]
  rhsContracting := [1]
  lhsNonContracting := [0]
  rhsNonContracting := [0]
  lhsBatch := []
  rhsBatch := []
  wf := dot_S1024x512_S1x512_S1024x1_1_1_0_0_n_n_wf

class Facts : Prop extends Facts₀ where

variable [Facts]
-- ==== Proof.LibTropicalMax.lean ====
/-
  The maximum of finitely many extended reals, taken from -∞, and its behaviour under cutting the index range into
  consecutive chunks of one width.

  `tmax f` is the maximum over `k : Fin n` of `f k`, starting from `⊥` (so it is `⊥` for `n = 0`). It is carried by
  its universal property: `tmax f ≤ v` exactly when every `f k ≤ v`. Two values with the same upper bounds are
  equal, so a running maximum over the chunks of an index range, accumulated from `⊥`, is the maximum over the
  whole range: an index of the range lies in exactly one chunk, at its position less the chunk's offset.
-/
import Idealize.ShloMosaic.PureOps.Ideal

noncomputable section

namespace TropicalMax

open Idealize.ShloMosaic

/-- The maximum of `f` over `Fin n`, from `⊥`. -/
def tmax {n : ℕ} (f : Fin n → EReal) : EReal := (Finset.univ : Finset (Fin n)).fold max ⊥ f

/-- Upper bounds of the maximum are the common upper bounds of the terms. -/
theorem tmax_le_iff {n : ℕ} (f : Fin n → EReal) (v : EReal) : tmax f ≤ v ↔ ∀ k, f k ≤ v := by
  unfold tmax
  rw [Finset.fold_max_le]
  simp

/-- Equal terms give equal maxima. -/
theorem tmax_congr {n : ℕ} {f g : Fin n → EReal} (h : ∀ k, f k = g k) : tmax f = tmax g :=
  congrArg tmax (funext h)

/-- The f32 pattern of -∞ is `⊥` on the extended reals. -/
theorem negInf_eq : Ideal.ofBits .f32 0xFF800000#32 = (⊥ : EReal) := by
  simp [Ideal.ofBits, Ideal.ieee]

/-- One chunk covering the whole range: the running maximum from `⊥` over it is the maximum. -/
theorem tmax_chunks1 {n : ℕ} (f c0 : Fin n → EReal) (h0 : ∀ (k i : Fin n), i.val = k.val → c0 k = f i) :
    max ⊥ (tmax c0) = tmax f := by
  rw [max_eq_right bot_le]
  exact tmax_congr fun k => h0 k k rfl

/-- Two chunks of width `K`: the running maximum from `⊥` over the chunks is the maximum over the range. -/
theorem tmax_chunks2 {n K : ℕ} (hn : n = K + K) (f : Fin n → EReal) (c0 c1 : Fin K → EReal)
    (h0 : ∀ (k : Fin K) (i : Fin n), i.val = k.val → c0 k = f i)
    (h1 : ∀ (k : Fin K) (i : Fin n), i.val = K + k.val → c1 k = f i) :
    max (max ⊥ (tmax c0)) (tmax c1) = tmax f := by
  refine eq_of_forall_ge_iff fun v => ?_
  simp only [max_le_iff, bot_le, true_and, tmax_le_iff]
  constructor
  · rintro ⟨a0, a1⟩ i
    by_cases hi : i.val < K
    · rw [← h0 ⟨i.val, hi⟩ i rfl]; exact a0 _
    · rw [← h1 ⟨i.val - K, by omega⟩ i (by show i.val = K + (i.val - K); omega)]; exact a1 _
  · intro hf
    refine ⟨fun k => ?_, fun k => ?_⟩
    · rw [h0 k ⟨k.val, by omega⟩ rfl]; exact hf _
    · rw [h1 k ⟨K + k.val, by omega⟩ rfl]; exact hf _

/-- Four chunks of width `K`. -/
theorem tmax_chunks4 {n K : ℕ} (hn : n = K + K + K + K) (f : Fin n → EReal) (c0 c1 c2 c3 : Fin K → EReal)
    (h0 : ∀ (k : Fin K) (i : Fin n), i.val = k.val → c0 k = f i)
    (h1 : ∀ (k : Fin K) (i : Fin n), i.val = K + k.val → c1 k = f i)
    (h2 : ∀ (k : Fin K) (i : Fin n), i.val = K + K + k.val → c2 k = f i)
    (h3 : ∀ (k : Fin K) (i : Fin n), i.val = K + K + K + k.val → c3 k = f i) :
    max (max (max (max ⊥ (tmax c0)) (tmax c1)) (tmax c2)) (tmax c3) = tmax f := by
  refine eq_of_forall_ge_iff fun v => ?_
  simp only [max_le_iff, bot_le, true_and, tmax_le_iff]
  constructor
  · rintro ⟨⟨⟨a0, a1⟩, a2⟩, a3⟩ i
    by_cases hi0 : i.val < K
    · rw [← h0 ⟨i.val, hi0⟩ i rfl]; exact a0 _
    · by_cases hi1 : i.val < K + K
      · rw [← h1 ⟨i.val - K, by omega⟩ i (by show i.val = K + (i.val - K); omega)]; exact a1 _
      · by_cases hi2 : i.val < K + K + K
        · rw [← h2 ⟨i.val - (K + K), by omega⟩ i (by show i.val = K + K + (i.val - (K + K)); omega)]; exact a2 _
        · rw [← h3 ⟨i.val - (K + K + K), by omega⟩ i (by show i.val = K + K + K + (i.val - (K + K + K)); omega)]
          exact a3 _
  · intro hf
    refine ⟨⟨⟨fun k => ?_, fun k => ?_⟩, fun k => ?_⟩, fun k => ?_⟩
    · rw [h0 k ⟨k.val, by omega⟩ rfl]; exact hf _
    · rw [h1 k ⟨K + k.val, by omega⟩ rfl]; exact hf _
    · rw [h2 k ⟨K + K + k.val, by omega⟩ rfl]; exact hf _
    · rw [h3 k ⟨K + K + K + k.val, by omega⟩ rfl]; exact hf _

end TropicalMax

end
-- ==== Proof.Spec.lean ====
/-
  The function both programs compute, on the extended reals.

  One unit of a layer takes the row `h` of its inputs, its weight row `w` and its bias `b` to
  `c₁ · (∑ k, h k · w k) + c₂ · (max over k of w k · h k) + b`, where `c₁` and `c₂` are the f32 values nearest 0.8 and
  0.2 and the maximum starts from -∞. A layer applies the units of its weight matrix to one input row; the network is
  four layers, of widths 256 → 512 → 512 → 512 → 1, applied to one row of the input, and its value is the last layer's
  single output.
-/
import Idealize.ShloMosaic.Lib.ValueIdx
import proofs.«117809_j40312563041045_2_alg».proof.Proof.LibTropicalMax

noncomputable section

namespace MaxTempered

open Idealize.ShloMosaic Idealize.ShloMosaic.ValueIdx TropicalMax

/-- One unit: the weighted sum of the products and of their maximum, plus the bias. -/
def unit {n : ℕ} (h w : Fin n → EReal) (b : EReal) : EReal :=
  Ideal.ofBits .f32 0x3F4CCCCD#32 * (∑ k, h k * w k) + Ideal.ofBits .f32 0x3E4CCCCD#32 * tmax (fun k => w k * h k) + b

/-- A layer with weight matrix `W` (one row per output) and bias vector `b`, applied to the input row `h`. -/
def layer {I O : ℕ} (W : (⟨2, ![O, I]⟩ : Shape).Idx → EReal) (b : (⟨1, ![O]⟩ : Shape).Idx → EReal) (h : Fin I → EReal) :
    Fin O → EReal :=
  fun o => unit h (fun k => W (ix2 o k)) (b (ix1 o))

/-- The four layers applied to one input row; the last layer has one output. -/
def net (W1 : (⟨2, ![512, 256]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 512]⟩ : Shape).Idx → EReal) (b3 : (⟨1, ![512]⟩ : Shape).Idx → EReal)
    (W4 : (⟨2, ![1, 512]⟩ : Shape).Idx → EReal) (b4 : (⟨1, ![1]⟩ : Shape).Idx → EReal) (x : Fin 256 → EReal) : EReal :=
  layer W4 b4 (layer W3 b3 (layer W2 b2 (layer W1 b1 x))) 0

end MaxTempered

end
-- ==== Proof.LibRank3Layout.lean ====
/-
  Rank-3 layout operations read at an index, and a lane sum over the last axis of a rank-3 array.

  A pairwise kernel builds an [a, b, c] array out of an [a, c] array (one row per first coordinate), a [b, c] array (one
  row per second coordinate) and a [c] vector (the same for every pair) by inserting unit axes with a shape cast and
  broadcasting along them. Each lemma below reads one such operation at an index written by coordinates
  (`ix2`, `ix3`); the last two read a sum over the last axis of a rank-3 array at a pair `(i, j)` as a sum over the
  third coordinate. All are stated for arbitrary extents.
-/
import Idealize.ShloMosaic.Lib.Pipeline.Value
import Idealize.ShloMosaic.Lib.ValueIdx
import Idealize.ShloMosaic.Lib.ValueLayout
import Idealize.ShloMosaic.PureOps.Ideal.Laws

noncomputable section

namespace Rank3Layout

open Idealize.ShloMosaic Idealize.ShloMosaic.ValueIdx

variable {α : Type}

/-- An `[a, c]` array cast to `[a, 1, c]` reads, at `(i, u, k)`, the operand at `(i, k)`: the inserted middle axis has
    one coordinate, so both indices have the row-major position `i * c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv, Nat.zero_mul, Nat.zero_add])

/-- An `[a, 1, c]` array broadcast to `[a, b, c]` reads, at `(i, j, k)`, the operand at `(i, 0, k)`: the second
    coordinate is forgotten. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: the first
    coordinate is forgotten. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`: only the last
    coordinate is kept. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- Dropping the last axis of `[a, b, c]`: the source index over the pair `(i, j)` with last coordinate `k` is
    `(i, j, k)`. -/
theorem lift_last_eq {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- On the extended reals a `vector.multi_reduction <add>` over the LAST axis of an `[a, b, c]` array, from the neutral
    accumulator, is at the pair `(i, j)` the sum over `k` of the source at `(i, j, k)`. -/
theorem multiReduction_add_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_eq h i j k))

end Rank3Layout

end
-- ==== Proof.LibMaxLayout.lean ====
/-
  Maxima over the last axis of a rank-3 array read at an index, a four-piece concatenation of columns read at an
  index, and a rank-2 array read at two spellings of one index.

  A running maximum over the last axis of an `[a, b, c]` array, taken from -∞, is at the pair `(i, j)` the maximum
  over `k` of the source at `(i, j, k)`: for the vector reduction and for the host's reduce with a maximum body alike.
  Four `[a, K]` arrays laid side by side form an `[a, N]` array whose column `o` is column `o - nK` of piece `n`, for
  the one `n` with `nK ≤ o < (n+1)K`.
-/
import Idealize.ShloMosaic.Lib.Pipeline.Value
import Idealize.ShloMosaic.Lib.ValueIdx
import Idealize.ShloMosaic.Lib.ValueLayout
import Idealize.ShloMosaic.PureOps.Ideal.Laws
import proofs.«117809_j40312563041045_2_alg».proof.Proof.LibTropicalMax
import proofs.«117809_j40312563041045_2_alg».proof.Proof.LibRank3Layout

noncomputable section

namespace MaxLayout

open Idealize.ShloMosaic Idealize.ShloMosaic.ValueIdx TropicalMax

variable {α : Type}

/-- A rank-2 array read at two indices with equal coordinates. -/
theorem read2_congr {m n : ℕ} (v : (⟨2, ![m, n]⟩ : Shape).Idx → α) {p p' : Fin m} {q q' : Fin n}
    (hp : p.val = p'.val) (hq : q.val = q'.val) : v (ix2 p q) = v (ix2 p' q') := by
  rw [Fin.ext hp, Fin.ext hq]

/-- A maximum from `⊥` written as the fold the library's reduction lemmas produce. -/
theorem fold_negInf_eq_tmax {n : ℕ} (f : Fin n → EReal) :
    (Finset.univ : Finset (Fin n)).fold max (Ideal.ofBits .f32 0xFF800000#32) f = tmax f := by
  rw [negInf_eq]; rfl

/-- On the extended reals a `vector.multi_reduction <maximumf>` over the LAST axis of an `[a, b, c]` array, from -∞, is
    at the pair `(i, j)` the maximum over `k` of the source at `(i, j, k)`. -/
theorem multiReduction_max_last_apply {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec 32) = 0xFF800000#32) (i : Fin a) (j : Fin b) :
    multiReduction .maximumf [2] ⟨2, ![a, b]⟩ src 0xFF800000#32 h hφ hacc (ix2 i j)
      = tmax fun k : Fin c => src (ix3 i j k) :=
  (Ideal.multiReduction_maximumf_single src 0xFF800000#32 h hφ hacc (ix2 i j)).trans
    ((congrArg (fun f => (Finset.univ : Finset (Fin c)).fold max (Ideal.ofBits .f32 0xFF800000#32) f)
      (funext fun k => congrArg src (Rank3Layout.lift_last_eq h i j k))).trans (fold_negInf_eq_tmax _))

/-- The host's reduce with a maximum body over the LAST axis of an `[a, b, c]` array, from the rank-0 constant -∞,
    likewise. -/
theorem hostReduce_max_last_apply {a b c : ℕ} (x : FVec Ideal ⟨3, ![a, b, c]⟩ .f32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (i : Fin a) (j : Fin b) :
    Host.reduce FloatOps.maximumf x (constant (F := Ideal) (⟨0, ![]⟩ : Shape) .f32 0xFF800000#32) h' hu (ix2 i j)
      = tmax fun k : Fin c => x (ix3 i j k) :=
  (Host.reduce_eq_fold_single FloatOps.maximumf x _ h' h hu (ix2 i j)).trans
    ((congrArg (fun f => (Finset.univ : Finset (Fin c)).fold max (Ideal.ofBits .f32 0xFF800000#32) f)
      (funext fun k => congrArg x (Rank3Layout.lift_last_eq h i j k))).trans (fold_negInf_eq_tmax _))

/-- A rank-2 array read at a pair of natural numbers: its entry there when both are in range (and 0 otherwise, a case
    never met below). Reading through numbers keeps the statements free of bound proofs. -/
def at2 {m n : ℕ} (v : (⟨2, ![m, n]⟩ : Shape).Idx → EReal) (p q : ℕ) : EReal :=
  if h : p < m ∧ q < n then v (ix2 ⟨p, h.1⟩ ⟨q, h.2⟩) else 0

theorem at2_of_eq {m n : ℕ} (v : (⟨2, ![m, n]⟩ : Shape).Idx → EReal) (p : Fin m) (q : Fin n) {p' q' : ℕ}
    (hp : p.val = p') (hq : q.val = q') : at2 v p' q' = v (ix2 p q) := by
  subst hp hq
  unfold at2
  rw [dif_pos ⟨p.isLt, q.isLt⟩]

/-- One chunk of the tropical product: rows `ro …` of the weight matrix `W` and columns `co …` of `W` and of the input
    block `X` are cut out, the weight chunk is repeated over the input rows and the input chunk over the weight rows,
    the two are multiplied and the maximum over the chunk's columns is taken from -∞. At input row `r` and chunk row `o`
    that is the maximum over `k` of `W (ro + o, co + k) · X (r, co + k)`. -/
theorem chunk_apply {O I a b c : ℕ} (W : FVec Ideal ⟨2, ![O, I]⟩ .f32) (X : FVec Ideal ⟨2, ![a, I]⟩ .f32) (ro co : ℕ)
    (hs1 : (⟨2, ![O, I]⟩ : Shape).Slices ![ro, 0] ⟨2, ![b, I]⟩)
    (hs2 : (⟨2, ![b, I]⟩ : Shape).Slices ![0, co] ⟨2, ![b, c]⟩)
    (hs3 : (⟨2, ![a, I]⟩ : Shape).Slices ![0, co] ⟨2, ![a, c]⟩)
    (hc1 : (⟨2, ![b, c]⟩ : Shape).ShapeCasts ⟨3, ![1, b, c]⟩)
    (hc2 : (⟨2, ![a, c]⟩ : Shape).ShapeCasts ⟨3, ![a, 1, c]⟩)
    (hb1 : (⟨3, ![1, b, c]⟩ : Shape).Broadcasts ⟨3, ![a, b, c]⟩)
    (hb2 : (⟨3, ![a, 1, c]⟩ : Shape).Broadcasts ⟨3, ![a, b, c]⟩)
    (hr : (⟨3, ![a, b, c]⟩ : Shape).Reduces [2] ⟨2, ![a, b]⟩) (hφ : FKind.Formats .f32)
    (hacc : (0xFF800000#32 : BitVec 32) = 0xFF800000#32) (r : Fin a) (o : Fin b) :
    multiReduction .maximumf [2] ⟨2, ![a, b]⟩
        (mulf
          (broadcastTo ⟨3, ![a, b, c]⟩
            (shapeCast ⟨3, ![1, b, c]⟩
              (extractStridedSlice ⟨2, ![b, c]⟩ ![0, co] (extractStridedSlice ⟨2, ![b, I]⟩ ![ro, 0] W hs1) hs2) hc1) hb1)
          (broadcastTo ⟨3, ![a, b, c]⟩
            (shapeCast ⟨3, ![a, 1, c]⟩ (extractStridedSlice ⟨2, ![a, c]⟩ ![0, co] X hs3) hc2) hb2))
        0xFF800000#32 hr hφ hacc (ix2 r o)
      = tmax fun k : Fin c => at2 W (ro + o.val) (co + k.val) * at2 X r.val (co + k.val) :=
  (multiReduction_max_last_apply _ hr hφ hacc r o).trans (tmax_congr fun k => by
    show broadcastTo ⟨3, ![a, b, c]⟩ _ hb1 (ix3 r o k) * broadcastTo ⟨3, ![a, b, c]⟩ _ hb2 (ix3 r o k) = _
    rw [Rank3Layout.broadcastTo_1bc_abc_apply, Rank3Layout.broadcastTo_a1c_abc_apply, shapeCast_ab_1ab_apply,
      Rank3Layout.shapeCast_ac_a1c_apply, slice2_axis1_eq, slice2_axis0_eq, slice2_axis1_eq]
    exact congrArg₂ (· * ·) (at2_of_eq W _ _ rfl rfl).symm (at2_of_eq X _ _ rfl rfl).symm)

/-- The same chunk for a weight matrix with ONE row (no row cut, the one weight row repeated over the input rows, the
    input chunk with a unit middle axis inserted): at input row `r` it is the maximum over `k` of
    `W (0, co + k) · X (r, co + k)`. -/
theorem chunk_row_apply {I a c : ℕ} (W : FVec Ideal ⟨2, ![1, I]⟩ .f32) (X : FVec Ideal ⟨2, ![a, I]⟩ .f32) (co : ℕ)
    (hs2 : (⟨2, ![1, I]⟩ : Shape).Slices ![0, co] ⟨2, ![1, c]⟩)
    (hs3 : (⟨2, ![a, I]⟩ : Shape).Slices ![0, co] ⟨2, ![a, c]⟩)
    (hc1 : (⟨2, ![1, c]⟩ : Shape).ShapeCasts ⟨3, ![1, 1, c]⟩)
    (hc2 : (⟨2, ![a, c]⟩ : Shape).ShapeCasts ⟨3, ![a, 1, c]⟩)
    (hb1 : (⟨3, ![1, 1, c]⟩ : Shape).Broadcasts ⟨3, ![a, 1, c]⟩)
    (hr : (⟨3, ![a, 1, c]⟩ : Shape).Reduces [2] ⟨2, ![a, 1]⟩) (hφ : FKind.Formats .f32)
    (hacc : (0xFF800000#32 : BitVec 32) = 0xFF800000#32) (r : Fin a) (u : Fin 1) :
    multiReduction .maximumf [2] ⟨2, ![a, 1]⟩
        (mulf
          (broadcastTo ⟨3, ![a, 1, c]⟩
            (shapeCast ⟨3, ![1, 1, c]⟩ (extractStridedSlice ⟨2, ![1, c]⟩ ![0, co] W hs2) hc1) hb1)
          (shapeCast ⟨3, ![a, 1, c]⟩ (extractStridedSlice ⟨2, ![a, c]⟩ ![0, co] X hs3) hc2))
        0xFF800000#32 hr hφ hacc (ix2 r u)
      = tmax fun k : Fin c => at2 W 0 (co + k.val) * at2 X r.val (co + k.val) :=
  (multiReduction_max_last_apply _ hr hφ hacc r u).trans (tmax_congr fun k => by
    show broadcastTo ⟨3, ![a, 1, c]⟩ _ hb1 (ix3 r u k) * shapeCast ⟨3, ![a, 1, c]⟩ _ hc2 (ix3 r u k) = _
    rw [Rank3Layout.broadcastTo_1bc_abc_apply, shapeCast_ab_1ab_apply,
      Rank3Layout.shapeCast_ac_a1c_apply, slice2_axis1_eq, slice2_axis1_eq]
    exact congrArg₂ (· * ·) (at2_of_eq W u _ (by omega) rfl).symm (at2_of_eq X _ _ rfl rfl).symm)

/-- The running maximum over two column chunks of width 128 of row `ro + o'` of `W` against row `r` of `X` is the
    maximum over all 256 columns. -/
theorem piece2 {O a : ℕ} (W : (⟨2, ![O, 256]⟩ : Shape).Idx → EReal) (X : (⟨2, ![a, 256]⟩ : Shape).Idx → EReal) (ro : ℕ)
    (r : Fin a) (o' : Fin 128) (o : Fin O) (ho : o.val = ro + o'.val) :
    max (max (Ideal.ofBits .f32 0xFF800000#32)
          (tmax fun k : Fin 128 => at2 W (ro + o'.val) (0 + k.val) * at2 X r.val (0 + k.val)))
        (tmax fun k : Fin 128 => at2 W (ro + o'.val) (128 + k.val) * at2 X r.val (128 + k.val))
      = tmax fun i : Fin 256 => W (ix2 o i) * X (ix2 r i) := by
  rw [negInf_eq]
  refine tmax_chunks2 (K := 128) rfl _ _ _ (fun k i hi => ?_) (fun k i hi => ?_)
  · rw [at2_of_eq W o i ho (by omega), at2_of_eq X r i rfl (by omega)]
  · rw [at2_of_eq W o i ho (by omega), at2_of_eq X r i rfl (by omega)]

/-- Four column chunks of width 128: the maximum over all 512 columns. -/
theorem piece4 {O a : ℕ} (W : (⟨2, ![O, 512]⟩ : Shape).Idx → EReal) (X : (⟨2, ![a, 512]⟩ : Shape).Idx → EReal) (ro : ℕ)
    (r : Fin a) (o' : Fin 128) (o : Fin O) (ho : o.val = ro + o'.val) :
    max (max (max (max (Ideal.ofBits .f32 0xFF800000#32)
            (tmax fun k : Fin 128 => at2 W (ro + o'.val) (0 + k.val) * at2 X r.val (0 + k.val)))
          (tmax fun k : Fin 128 => at2 W (ro + o'.val) (128 + k.val) * at2 X r.val (128 + k.val)))
        (tmax fun k : Fin 128 => at2 W (ro + o'.val) (256 + k.val) * at2 X r.val (256 + k.val)))
      (tmax fun k : Fin 128 => at2 W (ro + o'.val) (384 + k.val) * at2 X r.val (384 + k.val))
      = tmax fun i : Fin 512 => W (ix2 o i) * X (ix2 r i) := by
  rw [negInf_eq]
  refine tmax_chunks4 (K := 128) rfl _ _ _ _ _ (fun k i hi => ?_) (fun k i hi => ?_) (fun k i hi => ?_) (fun k i hi => ?_)
  · rw [at2_of_eq W o i ho (by omega), at2_of_eq X r i rfl (by omega)]
  · rw [at2_of_eq W o i ho (by omega), at2_of_eq X r i rfl (by omega)]
  · rw [at2_of_eq W o i ho (by omega), at2_of_eq X r i rfl (by omega)]
  · rw [at2_of_eq W o i ho (by omega), at2_of_eq X r i rfl (by omega)]

/-- Four column chunks of the one row of a `[1, 512]` weight matrix. -/
theorem piece4_row {a : ℕ} (W : (⟨2, ![1, 512]⟩ : Shape).Idx → EReal) (X : (⟨2, ![a, 512]⟩ : Shape).Idx → EReal)
    (r : Fin a) (o : Fin 1) :
    max (max (max (max (Ideal.ofBits .f32 0xFF800000#32)
            (tmax fun k : Fin 128 => at2 W 0 (0 + k.val) * at2 X r.val (0 + k.val)))
          (tmax fun k : Fin 128 => at2 W 0 (128 + k.val) * at2 X r.val (128 + k.val)))
        (tmax fun k : Fin 128 => at2 W 0 (256 + k.val) * at2 X r.val (256 + k.val)))
      (tmax fun k : Fin 128 => at2 W 0 (384 + k.val) * at2 X r.val (384 + k.val))
      = tmax fun i : Fin 512 => W (ix2 o i) * X (ix2 r i) := by
  have ho : o.val = 0 := by omega
  rw [negInf_eq]
  refine tmax_chunks4 (K := 128) rfl _ _ _ _ _ (fun k i hi => ?_) (fun k i hi => ?_) (fun k i hi => ?_) (fun k i hi => ?_)
  · rw [at2_of_eq W o i ho (by omega), at2_of_eq X r i rfl (by omega)]
  · rw [at2_of_eq W o i ho (by omega), at2_of_eq X r i rfl (by omega)]
  · rw [at2_of_eq W o i ho (by omega), at2_of_eq X r i rfl (by omega)]
  · rw [at2_of_eq W o i ho (by omega), at2_of_eq X r i rfl (by omega)]

/-- A bias vector laid out as one row and repeated over the rows of a block reads, at `(r, o)`, entry `o`. -/
theorem bias_apply {a n : ℕ} (b : (⟨1, ![n]⟩ : Shape).Idx → α) (hc : (⟨1, ![n]⟩ : Shape).ShapeCasts ⟨2, ![1, n]⟩)
    (hb : (⟨2, ![1, n]⟩ : Shape).Broadcasts ⟨2, ![a, n]⟩) (r : Fin a) (o : Fin n) :
    broadcastTo ⟨2, ![a, n]⟩ (shapeCast ⟨2, ![1, n]⟩ b hc) hb (ix2 r o) = b (ix1 o) := by
  rw [broadcastTo_1b_ab_apply, shapeCast_a_1a_apply]

end MaxLayout

end
-- ==== Proof.LibConcatCols.lean ====
/-
  Four arrays of one shape `[a, K]` laid side by side along the columns, read at an index.

  Column `o` of the concatenation is column `o - nK` of piece `n`, for the one `n` with `nK ≤ o < (n+1)K`. The lemma
  is stated as an elimination: to show that the concatenation at `(r, o)` is `g`, it suffices to show that each piece
  is `g` at the column its span would give `o`.
-/
import Idealize.ShloMosaic.Lib.Pipeline.Value
import Idealize.ShloMosaic.Lib.ValueIdx

noncomputable section

namespace ConcatCols

open Idealize.ShloMosaic Idealize.ShloMosaic.ValueIdx

variable {α : Type}

theorem concat4_cols_eq {a K N : ℕ} (p0 p1 p2 p3 : (⟨2, ![a, K]⟩ : Shape).Idx → α)
    (h : Shape.Concatenates (([⟨⟨2, ![a, K]⟩, p0⟩, ⟨⟨2, ![a, K]⟩, p1⟩, ⟨⟨2, ![a, K]⟩, p2⟩, ⟨⟨2, ![a, K]⟩, p3⟩] :
      List ((s : Shape) × (s.Idx → α))).map (·.1)) ⟨2, ![a, N]⟩ 1)
    (r : Fin a) (o : Fin N) (g : α)
    (h0 : ∀ o' : Fin K, o.val = o'.val → p0 (ix2 r o') = g)
    (h1 : ∀ o' : Fin K, o.val = K + o'.val → p1 (ix2 r o') = g)
    (h2 : ∀ o' : Fin K, o.val = K + K + o'.val → p2 (ix2 r o') = g)
    (h3 : ∀ o' : Fin K, o.val = K + K + K + o'.val → p3 (ix2 r o') = g) :
    concatenate ⟨2, ![a, N]⟩ 1 [⟨⟨2, ![a, K]⟩, p0⟩, ⟨⟨2, ![a, K]⟩, p1⟩, ⟨⟨2, ![a, K]⟩, p2⟩, ⟨⟨2, ![a, K]⟩, p3⟩] h (ix2 r o) = g := by
  have hN : K + (K + (K + (K + 0))) = N := by
    have := h.2.2
    simpa using this
  have ho := o.isLt
  have hi : ∀ (o' : Fin K) (b : Fin (⟨2, ![a, K]⟩ : Shape).rank), b.cast (rfl : (⟨2, ![a, K]⟩ : Shape).rank = (⟨2, ![a, N]⟩ : Shape).rank) ≠ 1 →
      ((ix2 r o' : (⟨2, ![a, K]⟩ : Shape).Idx) b).val = ((ix2 r o : (⟨2, ![a, N]⟩ : Shape).Idx) (b.cast rfl)).val := by
    intro o' b hb
    match b with
    | ⟨0, _⟩ => rfl
    | ⟨1, _⟩ => exact absurd rfl hb
  by_cases c0 : o.val < K
  · refine (concatenate_apply_piece 1 _ h (ix2 r o) 0 (by simp) ⟨2, ![a, K]⟩ p0 rfl rfl 0 (by simp) (ix2 r ⟨o.val, c0⟩)
      (hi _) ?_).trans (h0 ⟨o.val, c0⟩ rfl)
    show 0 + o.val = o.val
    omega
  · by_cases c1 : o.val < K + K
    · refine (concatenate_apply_piece 1 _ h (ix2 r o) 1 (by simp) ⟨2, ![a, K]⟩ p1 rfl rfl K (by simp) (ix2 r ⟨o.val - K, by omega⟩)
        (hi _) ?_).trans (h1 ⟨o.val - K, by omega⟩ (by show o.val = K + (o.val - K); omega))
      show K + (o.val - K) = o.val
      omega
    · by_cases c2 : o.val < K + K + K
      · refine (concatenate_apply_piece 1 _ h (ix2 r o) 2 (by simp) ⟨2, ![a, K]⟩ p2 rfl rfl (K + K) (by simp) (ix2 r ⟨o.val - (K + K), by omega⟩)
          (hi _) ?_).trans (h2 ⟨o.val - (K + K), by omega⟩ (by show o.val = K + K + (o.val - (K + K)); omega))
        show K + K + (o.val - (K + K)) = o.val
        omega
      · refine (concatenate_apply_piece 1 _ h (ix2 r o) 3 (by simp) ⟨2, ![a, K]⟩ p3 rfl rfl (K + K + K) (by simp; omega) (ix2 r ⟨o.val - (K + K + K), by omega⟩)
          (hi _) ?_).trans (h3 ⟨o.val - (K + K + K), by omega⟩ (by show o.val = K + K + K + (o.val - (K + K + K)); omega))
        show K + K + K + (o.val - (K + K + K)) = o.val
        omega

end ConcatCols

end
-- ==== Proof.KLinear.lean ====
/-
  The linear part of each layer read at an index: the block of inputs times the transposed weight matrix, through the
  change of float format, is the plain sum of products over the contracted axis.
-/
import proofs.«117809_j40312563041045_2_alg».proof.Proof.Gen.KernelIdeal
import Idealize.ShloMosaic.Lib.ValueIdx
import Idealize.ShloMosaic.Lib.ValueLayout
import Idealize.ShloMosaic.PureOps.Ideal.Laws

noncomputable section

namespace Cert.KernelIdeal.KValue

open Idealize.ShloMosaic Idealize.ShloMosaic.ValueIdx Cert.KernelIdeal

/-! ### The matrix product of shape [64, 256] × [256, 512] -/

theorem mm1_lhs0 (i : S64x512.Idx) (q : dot_S64x256_S256x512_S64x512_1_0_0_1_n_n.contr.Idx) : (dot_S64x256_S256x512_S64x512_1_0_0_1_n_n.lhsIdx i q 0).val = (i 0).val := by
  unfold DotDims.lhsIdx
  rw [dif_neg (show ¬(0 : Fin S64x256.rank) ∈ dot_S64x256_S256x512_S64x512_1_0_0_1_n_n.lhsBatch by decide), dif_pos (show (0 : Fin S64x256.rank) ∈ dot_S64x256_S256x512_S64x512_1_0_0_1_n_n.lhsNonContracting by decide)]
  rfl
theorem mm1_lhs1 (i : S64x512.Idx) (q : dot_S64x256_S256x512_S64x512_1_0_0_1_n_n.contr.Idx) : (dot_S64x256_S256x512_S64x512_1_0_0_1_n_n.lhsIdx i q 1).val = (q ⟨0, by decide⟩).val :=
  dot_S64x256_S256x512_S64x512_1_0_0_1_n_n.lhsIdx_val_of_single rfl i q
theorem mm1_rhs0 (i : S64x512.Idx) (q : dot_S64x256_S256x512_S64x512_1_0_0_1_n_n.contr.Idx) : (dot_S64x256_S256x512_S64x512_1_0_0_1_n_n.rhsIdx i q 0).val = (q ⟨0, by decide⟩).val :=
  dot_S64x256_S256x512_S64x512_1_0_0_1_n_n.rhsIdx_val_of_single rfl i q
theorem mm1_rhs1 (i : S64x512.Idx) (q : dot_S64x256_S256x512_S64x512_1_0_0_1_n_n.contr.Idx) : (dot_S64x256_S256x512_S64x512_1_0_0_1_n_n.rhsIdx i q 1).val = (i 1).val := by
  unfold DotDims.rhsIdx
  rw [dif_neg (show ¬(1 : Fin S256x512.rank) ∈ dot_S64x256_S256x512_S64x512_1_0_0_1_n_n.rhsBatch by decide), dif_pos (show (1 : Fin S256x512.rank) ∈ dot_S64x256_S256x512_S64x512_1_0_0_1_n_n.rhsNonContracting by decide)]
  rfl

/-- The product of a block `x` with the transpose of a weight matrix `w`, both passed through the change of float format
    (the identity on the extended reals), into a zero accumulator: at `(r, o)` the sum over `k` of `x (r, k) · w (o, k)`. -/
theorem mm1_apply (x : FVec Ideal S64x256 .f32) (w : FVec Ideal S512x256 .f32) (hx : FTy.bf16.bits < FTy.f32.bits) (hw : FTy.bf16.bits < FTy.f32.bits)
    (ht : S512x256.Transposes [1, 0] S256x512) (r : Fin 64) (o : Fin 512) :
    matmul dot_S64x256_S256x512_S64x512_1_0_0_1_n_n none (truncf .bf16 x hx) (transpose S256x512 [1, 0] (truncf .bf16 w hw) ht) (constant S64x512 .f32 0x00000000#32) (ix2 r o)
      = ∑ k : Fin 256, x (ix2 r k) * w (ix2 o k) := by
  refine (Ideal.matmul_constant_zero_apply dot_S64x256_S256x512_S64x512_1_0_0_1_n_n none _ _ (ix2 r o)).trans ?_
  rw [← Equiv.sum_comp (ValueIdx.contrEquiv1 dot_S64x256_S256x512_S64x512_1_0_0_1_n_n 256 rfl rfl).symm]
  refine Finset.sum_congr rfl fun k _ => ?_
  have hk := ValueIdx.contrEquiv1_symm_val dot_S64x256_S256x512_S64x512_1_0_0_1_n_n 256 rfl rfl k
  have el : dot_S64x256_S256x512_S64x512_1_0_0_1_n_n.lhsIdx (ix2 r o) ((ValueIdx.contrEquiv1 dot_S64x256_S256x512_S64x512_1_0_0_1_n_n 256 rfl rfl).symm k) = ix2 r k := funext fun a => Fin.ext (by
    match a with
    | ⟨0, _⟩ => exact mm1_lhs0 _ _
    | ⟨1, _⟩ => exact (mm1_lhs1 _ _).trans hk)
  have er : dot_S64x256_S256x512_S64x512_1_0_0_1_n_n.rhsIdx (ix2 r o) ((ValueIdx.contrEquiv1 dot_S64x256_S256x512_S64x512_1_0_0_1_n_n 256 rfl rfl).symm k) = ix2 k o := funext fun a => Fin.ext (by
    match a with
    | ⟨0, _⟩ => exact (mm1_rhs0 _ _).trans hk
    | ⟨1, _⟩ => exact mm1_rhs1 _ _)
  rw [el, er, transpose_ix2_apply]
  rfl

/-! ### The matrix product of shape [64, 512] × [512, 512] -/

theorem mm2_lhs0 (i : S64x512.Idx) (q : dot_S64x512_S512x512_S64x512_1_0_0_1_n_n.contr.Idx) : (dot_S64x512_S512x512_S64x512_1_0_0_1_n_n.lhsIdx i q 0).val = (i 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
theorem mm2_lhs1 (i : S64x512.Idx) (q : dot_S64x512_S512x512_S64x512_1_0_0_1_n_n.contr.Idx) : (dot_S64x512_S512x512_S64x512_1_0_0_1_n_n.lhsIdx i q 1).val = (q ⟨0, by decide⟩).val :=
  dot_S64x512_S512x512_S64x512_1_0_0_1_n_n.lhsIdx_val_of_single rfl i q
theorem mm2_rhs0 (i : S64x512.Idx) (q : dot_S64x512_S512x512_S64x512_1_0_0_1_n_n.contr.Idx) : (dot_S64x512_S512x512_S64x512_1_0_0_1_n_n.rhsIdx i q 0).val = (q ⟨0, by decide⟩).val :=
  dot_S64x512_S512x512_S64x512_1_0_0_1_n_n.rhsIdx_val_of_single rfl i q
theorem mm2_rhs1 (i : S64x512.Idx) (q : dot_S64x512_S512x512_S64x512_1_0_0_1_n_n.contr.Idx) : (dot_S64x512_S512x512_S64x512_1_0_0_1_n_n.rhsIdx i q 1).val = (i 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl

/-- The product of a block `x` with the transpose of a weight matrix `w`, both passed through the change of float format
    (the identity on the extended reals), into a zero accumulator: at `(r, o)` the sum over `k` of `x (r, k) · w (o, k)`. -/
theorem mm2_apply (x : FVec Ideal S64x512 .f32) (w : FVec Ideal S512x512 .f32) (hx : FTy.bf16.bits < FTy.f32.bits) (hw : FTy.bf16.bits < FTy.f32.bits)
    (ht : S512x512.Transposes [1, 0] S512x512) (r : Fin 64) (o : Fin 512) :
    matmul dot_S64x512_S512x512_S64x512_1_0_0_1_n_n none (truncf .bf16 x hx) (transpose S512x512 [1, 0] (truncf .bf16 w hw) ht) (constant S64x512 .f32 0x00000000#32) (ix2 r o)
      = ∑ k : Fin 512, x (ix2 r k) * w (ix2 o k) := by
  refine (Ideal.matmul_constant_zero_apply dot_S64x512_S512x512_S64x512_1_0_0_1_n_n none _ _ (ix2 r o)).trans ?_
  rw [← Equiv.sum_comp (ValueIdx.contrEquiv1 dot_S64x512_S512x512_S64x512_1_0_0_1_n_n 512 rfl rfl).symm]
  refine Finset.sum_congr rfl fun k _ => ?_
  have hk := ValueIdx.contrEquiv1_symm_val dot_S64x512_S512x512_S64x512_1_0_0_1_n_n 512 rfl rfl k
  have el : dot_S64x512_S512x512_S64x512_1_0_0_1_n_n.lhsIdx (ix2 r o) ((ValueIdx.contrEquiv1 dot_S64x512_S512x512_S64x512_1_0_0_1_n_n 512 rfl rfl).symm k) = ix2 r k := funext fun a => Fin.ext (by
    match a with
    | ⟨0, _⟩ => exact mm2_lhs0 _ _
    | ⟨1, _⟩ => exact (mm2_lhs1 _ _).trans hk)
  have er : dot_S64x512_S512x512_S64x512_1_0_0_1_n_n.rhsIdx (ix2 r o) ((ValueIdx.contrEquiv1 dot_S64x512_S512x512_S64x512_1_0_0_1_n_n 512 rfl rfl).symm k) = ix2 k o := funext fun a => Fin.ext (by
    match a with
    | ⟨0, _⟩ => exact (mm2_rhs0 _ _).trans hk
    | ⟨1, _⟩ => exact mm2_rhs1 _ _)
  rw [el, er, transpose_ix2_apply]
  rfl

/-! ### The matrix product of shape [64, 512] × [512, 1] -/

theorem mm4_lhs0 (i : S64x1.Idx) (q : dot_S64x512_S512x1_S64x1_1_0_0_1_n_n.contr.Idx) : (dot_S64x512_S512x1_S64x1_1_0_0_1_n_n.lhsIdx i q 0).val = (i 0).val := by
  unfold DotDims.lhsIdx
  rw [dif_neg (show ¬(0 : Fin S64x512.rank) ∈ dot_S64x512_S512x1_S64x1_1_0_0_1_n_n.lhsBatch by decide), dif_pos (show (0 : Fin S64x512.rank) ∈ dot_S64x512_S512x1_S64x1_1_0_0_1_n_n.lhsNonContracting by decide)]
  rfl
theorem mm4_lhs1 (i : S64x1.Idx) (q : dot_S64x512_S512x1_S64x1_1_0_0_1_n_n.contr.Idx) : (dot_S64x512_S512x1_S64x1_1_0_0_1_n_n.lhsIdx i q 1).val = (q ⟨0, by decide⟩).val :=
  dot_S64x512_S512x1_S64x1_1_0_0_1_n_n.lhsIdx_val_of_single rfl i q
theorem mm4_rhs0 (i : S64x1.Idx) (q : dot_S64x512_S512x1_S64x1_1_0_0_1_n_n.contr.Idx) : (dot_S64x512_S512x1_S64x1_1_0_0_1_n_n.rhsIdx i q 0).val = (q ⟨0, by decide⟩).val :=
  dot_S64x512_S512x1_S64x1_1_0_0_1_n_n.rhsIdx_val_of_single rfl i q
theorem mm4_rhs1 (i : S64x1.Idx) (q : dot_S64x512_S512x1_S64x1_1_0_0_1_n_n.contr.Idx) : (dot_S64x512_S512x1_S64x1_1_0_0_1_n_n.rhsIdx i q 1).val = (i 1).val := by
  unfold DotDims.rhsIdx
  rw [dif_neg (show ¬(1 : Fin S512x1.rank) ∈ dot_S64x512_S512x1_S64x1_1_0_0_1_n_n.rhsBatch by decide), dif_pos (show (1 : Fin S512x1.rank) ∈ dot_S64x512_S512x1_S64x1_1_0_0_1_n_n.rhsNonContracting by decide)]
  rfl

/-- The product of a block `x` with the transpose of a weight matrix `w`, both passed through the change of float format
    (the identity on the extended reals), into a zero accumulator: at `(r, o)` the sum over `k` of `x (r, k) · w (o, k)`. -/
theorem mm4_apply (x : FVec Ideal S64x512 .f32) (w : FVec Ideal S1x512 .f32) (hx : FTy.bf16.bits < FTy.f32.bits) (hw : FTy.bf16.bits < FTy.f32.bits)
    (ht : S1x512.Transposes [1, 0] S512x1) (r : Fin 64) (o : Fin 1) :
    matmul dot_S64x512_S512x1_S64x1_1_0_0_1_n_n none (truncf .bf16 x hx) (transpose S512x1 [1, 0] (truncf .bf16 w hw) ht) (constant S64x1 .f32 0x00000000#32) (ix2 r o)
      = ∑ k : Fin 512, x (ix2 r k) * w (ix2 o k) := by
  refine (Ideal.matmul_constant_zero_apply dot_S64x512_S512x1_S64x1_1_0_0_1_n_n none _ _ (ix2 r o)).trans ?_
  rw [← Equiv.sum_comp (ValueIdx.contrEquiv1 dot_S64x512_S512x1_S64x1_1_0_0_1_n_n 512 rfl rfl).symm]
  refine Finset.sum_congr rfl fun k _ => ?_
  have hk := ValueIdx.contrEquiv1_symm_val dot_S64x512_S512x1_S64x1_1_0_0_1_n_n 512 rfl rfl k
  have el : dot_S64x512_S512x1_S64x1_1_0_0_1_n_n.lhsIdx (ix2 r o) ((ValueIdx.contrEquiv1 dot_S64x512_S512x1_S64x1_1_0_0_1_n_n 512 rfl rfl).symm k) = ix2 r k := funext fun a => Fin.ext (by
    match a with
    | ⟨0, _⟩ => exact mm4_lhs0 _ _
    | ⟨1, _⟩ => exact (mm4_lhs1 _ _).trans hk)
  have er : dot_S64x512_S512x1_S64x1_1_0_0_1_n_n.rhsIdx (ix2 r o) ((ValueIdx.contrEquiv1 dot_S64x512_S512x1_S64x1_1_0_0_1_n_n 512 rfl rfl).symm k) = ix2 k o := funext fun a => Fin.ext (by
    match a with
    | ⟨0, _⟩ => exact (mm4_rhs0 _ _).trans hk
    | ⟨1, _⟩ => exact mm4_rhs1 _ _)
  rw [el, er, transpose_ix2_apply]
  rfl

end Cert.KernelIdeal.KValue

end
-- ==== Proof.KLayer1.lean ====
/-
  The first layer of the kernel's body (256 inputs, 512 outputs) read at an index.

  The body computes the 512 outputs of a block row in four groups of 128; within a group the maximum of the products
  `W (o, k) · x (r, k)` is accumulated from -∞ over two column chunks of width 128, which is the maximum over all 256
  columns. The linear part is the sum of the products; the two parts are weighted, added, and the bias is added.
-/
import proofs.«117809_j40312563041045_2_alg».proof.Proof.Gen.KernelIdeal.Skeleton
import proofs.«117809_j40312563041045_2_alg».proof.Proof.LibMaxLayout
import proofs.«117809_j40312563041045_2_alg».proof.Proof.LibConcatCols
import proofs.«117809_j40312563041045_2_alg».proof.Proof.KLinear
import proofs.«117809_j40312563041045_2_alg».proof.Proof.Spec

noncomputable section

namespace Cert.KernelIdeal.KValue

open Idealize.ShloMosaic Idealize.ShloMosaic.ValueIdx Cert.KernelIdeal Cert.KernelIdeal.Gen TropicalMax MaxLayout ConcatCols

/-- Outputs 0 … 127: the running maximum over the two column chunks. -/
theorem l1_piece0 (v0 : Vec Ideal S64x256 .f32) (v1 : Vec Ideal S512x256 .f32) (r : Fin 64) (o' : Fin 128) (o : Fin 512)
    (ho : o.val = o'.val) :
    k0_pay3 (F := Ideal) v0 v1 (ix2 r o') = tmax fun i : Fin 256 => v1 (ix2 o i) * v0 (ix2 r i) := by
  unfold k0_pay3
  try dsimp only
  rw [maximumf_apply, maximumf_apply, broadcast_apply, chunk_apply, chunk_apply]
  exact piece2 v1 v0 0 r o' o (by omega)

/-- Outputs 128 … 255. -/
theorem l1_piece1 (v0 : Vec Ideal S64x256 .f32) (v1 : Vec Ideal S512x256 .f32) (r : Fin 64) (o' : Fin 128) (o : Fin 512)
    (ho : o.val = 128 + o'.val) :
    k0_pay4 (F := Ideal) v0 v1 (ix2 r o') = tmax fun i : Fin 256 => v1 (ix2 o i) * v0 (ix2 r i) := by
  unfold k0_pay4
  try dsimp only
  rw [maximumf_apply, maximumf_apply, broadcast_apply, chunk_apply, chunk_apply]
  exact piece2 v1 v0 128 r o' o ho

/-- The first layer's output block at row `r` and output `o`. -/
theorem layer1_at (v0 : Vec Ideal S64x256 .f32) (v1 : Vec Ideal S512x256 .f32) (v2 : Vec Ideal S512 .f32) (r : Fin 64) (o : Fin 512) :
    k0_pay5 (F := Ideal) v0 v1 v2 (k0_pay2 v0 v1) (k0_pay3 v0 v1) (k0_pay4 v0 v1) (ix2 r o)
      = Ideal.ofBits .f32 0x3F4CCCCD#32 * (∑ k : Fin 256, v0 (ix2 r k) * v1 (ix2 o k))
        + Ideal.ofBits .f32 0x3E4CCCCD#32 * (tmax fun k : Fin 256 => v1 (ix2 o k) * v0 (ix2 r k)) + v2 (ix1 o) := by
  unfold k0_pay5
  try dsimp only
  rw [addf_apply, addf_apply, mulf_apply, mulf_apply, broadcast_apply, broadcast_apply, bias_apply]
  unfold k0_pay2
  try dsimp only
  rw [mm1_apply]
  refine congrArg₂ (· + ·) (congrArg₂ (· + ·) rfl (congrArg (fun z => Ideal.ofBits .f32 0x3E4CCCCD#32 * z) ?_)) rfl
  refine concat4_cols_eq _ _ _ _ _ r o _ (fun o' ho => ?_) (fun o' ho => ?_) (fun o' ho => ?_) (fun o' ho => ?_)
  · exact l1_piece0 v0 v1 r o' o ho
  · exact l1_piece1 v0 v1 r o' o ho
  · rw [maximumf_apply, maximumf_apply, broadcast_apply, chunk_apply, chunk_apply]
    exact piece2 v1 v0 256 r o' o ho
  · rw [maximumf_apply, maximumf_apply, broadcast_apply, chunk_apply, chunk_apply]
    exact piece2 v1 v0 384 r o' o ho

/-- The first layer's output block is the layer of the specification applied to each row of the input block. -/
theorem layer1_eq (v0 : Vec Ideal S64x256 .f32) (v1 : Vec Ideal S512x256 .f32) (v2 : Vec Ideal S512 .f32) :
    k0_pay5 (F := Ideal) v0 v1 v2 (k0_pay2 v0 v1) (k0_pay3 v0 v1) (k0_pay4 v0 v1)
      = fun j => MaxTempered.layer v1 v2 (fun k => v0 (ix2 (j 0) k)) (j 1) := by
  funext j
  obtain ⟨r, o, rfl⟩ : ∃ (r : Fin 64) (o : Fin 512), j = ix2 r o := ⟨j 0, j 1, eq_ix2 j⟩
  exact layer1_at v0 v1 v2 r o

end Cert.KernelIdeal.KValue

end
-- ==== Proof.KLayer2.lean ====
/-
  The second layer of the kernel's body (512 inputs, 512 outputs) read at an index.

  The 512 outputs of a block row are computed in four groups of 128; within a group the maximum of the products
  `W (o, k) · h (r, k)` is accumulated from -∞ over four column chunks of width 128, which is the maximum over all 512
  columns. The input block `h` is any [64, 512] array (the first layer's output block).
-/
import proofs.«117809_j40312563041045_2_alg».proof.Proof.Gen.KernelIdeal.Skeleton
import proofs.«117809_j40312563041045_2_alg».proof.Proof.LibMaxLayout
import proofs.«117809_j40312563041045_2_alg».proof.Proof.LibConcatCols
import proofs.«117809_j40312563041045_2_alg».proof.Proof.KLinear
import proofs.«117809_j40312563041045_2_alg».proof.Proof.Spec

noncomputable section

namespace Cert.KernelIdeal.KValue

open Idealize.ShloMosaic Idealize.ShloMosaic.ValueIdx Cert.KernelIdeal Cert.KernelIdeal.Gen TropicalMax MaxLayout ConcatCols

/-- Outputs 0 … 127. -/
theorem l2_piece0 (v95 : FVec Ideal S64x512 .f32) (v96 : Vec Ideal S512x512 .f32) (r : Fin 64) (o' : Fin 128) (o : Fin 512)
    (ho : o.val = o'.val) :
    k0_pay7 (F := Ideal) v95 v96 (ix2 r o') = tmax fun i : Fin 512 => v96 (ix2 o i) * v95 (ix2 r i) := by
  unfold k0_pay7
  try dsimp only
  rw [maximumf_apply, maximumf_apply, maximumf_apply, maximumf_apply, broadcast_apply, chunk_apply, chunk_apply, chunk_apply, chunk_apply]
  exact piece4 v96 v95 0 r o' o (by omega)

/-- Outputs 128 … 255. -/
theorem l2_piece1 (v95 : FVec Ideal S64x512 .f32) (v96 : Vec Ideal S512x512 .f32) (r : Fin 64) (o' : Fin 128) (o : Fin 512)
    (ho : o.val = 128 + o'.val) :
    k0_pay11 (F := Ideal) v95 (k0_pay8 v96) (k0_pay9 (F := Ideal)) (k0_pay10 v95 v96) (ix2 r o')
      = tmax fun i : Fin 512 => v96 (ix2 o i) * v95 (ix2 r i) := by
  unfold k0_pay11 k0_pay10 k0_pay8 k0_pay9
  try dsimp only
  rw [maximumf_apply, maximumf_apply, maximumf_apply, maximumf_apply, broadcast_apply, chunk_apply, chunk_apply, chunk_apply, chunk_apply]
  exact piece4 v96 v95 128 r o' o ho

/-- The second layer's output block at row `r` and output `o`. -/
theorem layer2_at (v95 : FVec Ideal S64x512 .f32) (v96 : Vec Ideal S512x512 .f32) (v97 : Vec Ideal S512 .f32) (r : Fin 64) (o : Fin 512) :
    k0_pay17 (F := Ideal) v97 (k0_pay6 v95 v96)
        (k0_pay16 v95 v96 (k0_pay7 v95 v96) (k0_pay11 v95 (k0_pay8 v96) (k0_pay9 (F := Ideal)) (k0_pay10 v95 v96)) (k0_pay12 v96)
          (k0_pay13 v95 v96) (k0_pay14 v96) (k0_pay15 v95)) (ix2 r o)
      = Ideal.ofBits .f32 0x3F4CCCCD#32 * (∑ k : Fin 512, v95 (ix2 r k) * v96 (ix2 o k))
        + Ideal.ofBits .f32 0x3E4CCCCD#32 * (tmax fun k : Fin 512 => v96 (ix2 o k) * v95 (ix2 r k)) + v97 (ix1 o) := by
  unfold k0_pay17
  try dsimp only
  rw [addf_apply, addf_apply, mulf_apply, mulf_apply, broadcast_apply, broadcast_apply, bias_apply]
  unfold k0_pay6
  try dsimp only
  rw [mm2_apply]
  refine congrArg₂ (· + ·) (congrArg₂ (· + ·) rfl (congrArg (fun z => Ideal.ofBits .f32 0x3E4CCCCD#32 * z) ?_)) rfl
  unfold k0_pay16
  try dsimp only
  refine concat4_cols_eq _ _ _ _ _ r o _ (fun o' ho => ?_) (fun o' ho => ?_) (fun o' ho => ?_) (fun o' ho => ?_)
  · exact l2_piece0 v95 v96 r o' o ho
  · exact l2_piece1 v95 v96 r o' o ho
  · unfold k0_pay13 k0_pay14 k0_pay15 k0_pay12
    try dsimp only
    rw [maximumf_apply, maximumf_apply, maximumf_apply, maximumf_apply, broadcast_apply, chunk_apply, chunk_apply, chunk_apply, chunk_apply]
    exact piece4 v96 v95 256 r o' o ho
  · rw [maximumf_apply, maximumf_apply, maximumf_apply, maximumf_apply, broadcast_apply, chunk_apply, chunk_apply, chunk_apply, chunk_apply]
    exact piece4 v96 v95 384 r o' o ho

/-- The second layer's output block is the layer of the specification applied to each row of its input block. -/
theorem layer2_eq (v95 : FVec Ideal S64x512 .f32) (v96 : Vec Ideal S512x512 .f32) (v97 : Vec Ideal S512 .f32) :
    k0_pay17 (F := Ideal) v97 (k0_pay6 v95 v96)
        (k0_pay16 v95 v96 (k0_pay7 v95 v96) (k0_pay11 v95 (k0_pay8 v96) (k0_pay9 (F := Ideal)) (k0_pay10 v95 v96)) (k0_pay12 v96)
          (k0_pay13 v95 v96) (k0_pay14 v96) (k0_pay15 v95))
      = fun j => MaxTempered.layer v96 v97 (fun k => v95 (ix2 (j 0) k)) (j 1) := by
  funext j
  obtain ⟨r, o, rfl⟩ : ∃ (r : Fin 64) (o : Fin 512), j = ix2 r o := ⟨j 0, j 1, eq_ix2 j⟩
  exact layer2_at v95 v96 v97 r o

end Cert.KernelIdeal.KValue

end
-- ==== Proof.KLayer3.lean ====
/-
  The third layer of the kernel's body (512 inputs, 512 outputs) read at an index.

  Its input block `h` is the second layer's output block, kept as one name throughout. As in the second layer the
  outputs come in four groups of 128, each a running maximum from -∞ over four column chunks of width 128.
-/
import proofs.«117809_j40312563041045_2_alg».proof.Proof.Gen.KernelIdeal.Skeleton
import proofs.«117809_j40312563041045_2_alg».proof.Proof.LibMaxLayout
import proofs.«117809_j40312563041045_2_alg».proof.Proof.LibConcatCols
import proofs.«117809_j40312563041045_2_alg».proof.Proof.KLinear
import proofs.«117809_j40312563041045_2_alg».proof.Proof.Spec

noncomputable section

namespace Cert.KernelIdeal.KValue

open Idealize.ShloMosaic Idealize.ShloMosaic.ValueIdx Cert.KernelIdeal Cert.KernelIdeal.Gen TropicalMax MaxLayout ConcatCols

/-- Outputs 0 … 127. -/
theorem l3_piece0 (v97 : Vec Ideal S512 .f32) (v101 : FVec Ideal S64x512 .f32) (v254 : FVec Ideal S64x512 .f32) (v263 : Vec Ideal S512x512 .f32) (r : Fin 64) (o' : Fin 128) (o : Fin 512) (ho : o.val = o'.val) :
    k0_pay22 (F := Ideal) (k0_pay20 v97 v101 v254 v263) (k0_pay21 v97 v101 v254 v263) (ix2 r o')
      = tmax fun i : Fin 512 => v263 (ix2 o i) * (k0_pay17 v97 v101 v254) (ix2 r i) := by
  unfold k0_pay22 k0_pay20 k0_pay21 k0_pay19
  try dsimp only
  rw [maximumf_apply, maximumf_apply, maximumf_apply, maximumf_apply, broadcast_apply, chunk_apply, chunk_apply, chunk_apply, chunk_apply]
  exact piece4 v263 (k0_pay17 v97 v101 v254) 0 r o' o (by omega)

/-- Outputs 128 … 255. -/
theorem l3_piece1 (v262 : FVec Ideal S64x512 .f32) (v263 : Vec Ideal S512x512 .f32) (r : Fin 64) (o' : Fin 128) (o : Fin 512)
    (ho : o.val = 128 + o'.val) :
    k0_pay23 (F := Ideal) v262 v263 (ix2 r o') = tmax fun i : Fin 512 => v263 (ix2 o i) * v262 (ix2 r i) := by
  unfold k0_pay23
  try dsimp only
  rw [maximumf_apply, maximumf_apply, maximumf_apply, maximumf_apply, broadcast_apply, chunk_apply, chunk_apply, chunk_apply, chunk_apply]
  exact piece4 v263 v262 128 r o' o ho

/-- Outputs 256 … 383. -/
theorem l3_piece2 (v262 : FVec Ideal S64x512 .f32) (v263 : Vec Ideal S512x512 .f32) (r : Fin 64) (o' : Fin 128) (o : Fin 512)
    (ho : o.val = 128 + 128 + o'.val) :
    k0_pay27 (F := Ideal) v262 (k0_pay24 v263) (k0_pay25 v262 v263) (k0_pay26 v263) (ix2 r o')
      = tmax fun i : Fin 512 => v263 (ix2 o i) * v262 (ix2 r i) := by
  unfold k0_pay27 k0_pay25 k0_pay26 k0_pay24
  try dsimp only
  rw [maximumf_apply, maximumf_apply, maximumf_apply, maximumf_apply, broadcast_apply, chunk_apply, chunk_apply, chunk_apply, chunk_apply]
  exact piece4 v263 v262 256 r o' o (by omega)

/-- The third layer's output block at row `r` and output `o`. -/
theorem layer3_at (v97 : Vec Ideal S512 .f32) (v101 : FVec Ideal S64x512 .f32) (v254 : FVec Ideal S64x512 .f32) (v263 : Vec Ideal S512x512 .f32) (v264 : Vec Ideal S512 .f32) (r : Fin 64) (o : Fin 512) :
    k0_pay31 (F := Ideal) (k0_pay17 v97 v101 v254) v264 (k0_pay18 v97 v101 v254 v263)
        (k0_pay22 (k0_pay20 v97 v101 v254 v263) (k0_pay21 v97 v101 v254 v263)) (k0_pay23 (k0_pay17 v97 v101 v254) v263)
        (k0_pay27 (k0_pay17 v97 v101 v254) (k0_pay24 v263) (k0_pay25 (k0_pay17 v97 v101 v254) v263) (k0_pay26 v263)) (k0_pay28 v263)
        (k0_pay29 (k0_pay17 v97 v101 v254) v263) (k0_pay30 (k0_pay17 v97 v101 v254) v263) (ix2 r o)
      = Ideal.ofBits .f32 0x3F4CCCCD#32 * (∑ k : Fin 512, (k0_pay17 v97 v101 v254) (ix2 r k) * v263 (ix2 o k))
        + Ideal.ofBits .f32 0x3E4CCCCD#32 * (tmax fun k : Fin 512 => v263 (ix2 o k) * (k0_pay17 v97 v101 v254) (ix2 r k)) + v264 (ix1 o) := by
  unfold k0_pay31
  try dsimp only
  rw [addf_apply, addf_apply, mulf_apply, mulf_apply, broadcast_apply, broadcast_apply, bias_apply]
  unfold k0_pay18
  try dsimp only
  rw [mm2_apply]
  refine congrArg₂ (· + ·) (congrArg₂ (· + ·) rfl (congrArg (fun z => Ideal.ofBits .f32 0x3E4CCCCD#32 * z) ?_)) rfl
  refine concat4_cols_eq _ _ _ _ _ r o _ (fun o' ho => ?_) (fun o' ho => ?_) (fun o' ho => ?_) (fun o' ho => ?_)
  · exact l3_piece0 v97 v101 v254 v263 r o' o ho
  · exact l3_piece1 (k0_pay17 v97 v101 v254) v263 r o' o ho
  · exact l3_piece2 (k0_pay17 v97 v101 v254) v263 r o' o ho
  · unfold k0_pay29 k0_pay30 k0_pay28
    try dsimp only
    rw [maximumf_apply, maximumf_apply, maximumf_apply, maximumf_apply, broadcast_apply, chunk_apply, chunk_apply, chunk_apply, chunk_apply]
    exact piece4 v263 (k0_pay17 v97 v101 v254) 384 r o' o ho

/-- The third layer's output block is the layer of the specification applied to each row of its input block. -/
theorem layer3_eq (v97 : Vec Ideal S512 .f32) (v101 : FVec Ideal S64x512 .f32) (v254 : FVec Ideal S64x512 .f32) (v263 : Vec Ideal S512x512 .f32) (v264 : Vec Ideal S512 .f32) :
    k0_pay31 (F := Ideal) (k0_pay17 v97 v101 v254) v264 (k0_pay18 v97 v101 v254 v263)
        (k0_pay22 (k0_pay20 v97 v101 v254 v263) (k0_pay21 v97 v101 v254 v263)) (k0_pay23 (k0_pay17 v97 v101 v254) v263)
        (k0_pay27 (k0_pay17 v97 v101 v254) (k0_pay24 v263) (k0_pay25 (k0_pay17 v97 v101 v254) v263) (k0_pay26 v263)) (k0_pay28 v263)
        (k0_pay29 (k0_pay17 v97 v101 v254) v263) (k0_pay30 (k0_pay17 v97 v101 v254) v263)
      = fun j => MaxTempered.layer v263 v264 (fun k => (k0_pay17 v97 v101 v254) (ix2 (j 0) k)) (j 1) := by
  funext j
  obtain ⟨r, o, rfl⟩ : ∃ (r : Fin 64) (o : Fin 512), j = ix2 r o := ⟨j 0, j 1, eq_ix2 j⟩
  exact layer3_at v97 v101 v254 v263 v264 r o

end Cert.KernelIdeal.KValue

end
-- ==== Proof.KLayer4.lean ====
/-
  The last layer of the kernel's body (512 inputs, one output) read at an index.

  Its input block `h` is the third layer's output block, kept as one name. There is one weight row; the maximum of the
  products `W (0, k) · h (r, k)` is accumulated from -∞ over four column chunks of width 128.
-/
import proofs.«117809_j40312563041045_2_alg».proof.Proof.Gen.KernelIdeal.Skeleton
import proofs.«117809_j40312563041045_2_alg».proof.Proof.LibMaxLayout
import proofs.«117809_j40312563041045_2_alg».proof.Proof.LibConcatCols
import proofs.«117809_j40312563041045_2_alg».proof.Proof.KLinear
import proofs.«117809_j40312563041045_2_alg».proof.Proof.Spec

noncomputable section

namespace Cert.KernelIdeal.KValue

open Idealize.ShloMosaic Idealize.ShloMosaic.ValueIdx Cert.KernelIdeal Cert.KernelIdeal.Gen TropicalMax MaxLayout ConcatCols

/-- The last layer's output block at row `r` (its one column `u`). -/
theorem layer4_at (a1 : FVec Ideal S64x512 .f32) (a2 : Vec Ideal S512 .f32) (a3 : FVec Ideal S64x512 .f32) (a4 a5 a6 : FVec Ideal S64x128 .f32)
    (a7 : FVec Ideal S128x512 .f32) (a8 : FVec Ideal S64x128 .f32) (a9 : FVec Ideal S64x128x128 .f32) (v430 : Vec Ideal S1x512 .f32) (v431 : Vec Ideal S1 .f32) (r : Fin 64) (u : Fin 1) :
    k0_pay1 (F := Ideal) (k0_pay31 a1 a2 a3 a4 a5 a6 a7 a8 a9) v430 v431 (k0_pay32 a1 a2 a3 a4 a5 a6 a7 a8 a9 v430) (k0_pay33 a1 a2 a3 a4 a5 a6 a7 a8 a9 v430) (k0_pay34 a1 a2 a3 a4 a5 a6 a7 a8 a9 v430) (ix2 r u)
      = Ideal.ofBits .f32 0x3F4CCCCD#32 * (∑ k : Fin 512, (k0_pay31 a1 a2 a3 a4 a5 a6 a7 a8 a9) (ix2 r k) * v430 (ix2 u k))
        + Ideal.ofBits .f32 0x3E4CCCCD#32 * (tmax fun k : Fin 512 => v430 (ix2 u k) * (k0_pay31 a1 a2 a3 a4 a5 a6 a7 a8 a9) (ix2 r k)) + v431 (ix1 u) := by
  unfold k0_pay1
  try dsimp only
  rw [addf_apply, addf_apply, mulf_apply, mulf_apply, broadcast_apply, broadcast_apply, bias_apply]
  unfold k0_pay32
  try dsimp only
  rw [mm4_apply]
  refine congrArg₂ (· + ·) (congrArg₂ (· + ·) rfl (congrArg (fun z => Ideal.ofBits .f32 0x3E4CCCCD#32 * z) ?_)) rfl
  unfold k0_pay33 k0_pay34
  try dsimp only
  rw [maximumf_apply, maximumf_apply, maximumf_apply, maximumf_apply, broadcast_apply, chunk_row_apply, chunk_row_apply, chunk_row_apply, chunk_row_apply]
  exact piece4_row v430 (k0_pay31 a1 a2 a3 a4 a5 a6 a7 a8 a9) r u

/-- The last layer's output block is the layer of the specification applied to each row of its input block. -/
theorem layer4_eq (a1 : FVec Ideal S64x512 .f32) (a2 : Vec Ideal S512 .f32) (a3 : FVec Ideal S64x512 .f32) (a4 a5 a6 : FVec Ideal S64x128 .f32)
    (a7 : FVec Ideal S128x512 .f32) (a8 : FVec Ideal S64x128 .f32) (a9 : FVec Ideal S64x128x128 .f32) (v430 : Vec Ideal S1x512 .f32) (v431 : Vec Ideal S1 .f32) :
    k0_pay1 (F := Ideal) (k0_pay31 a1 a2 a3 a4 a5 a6 a7 a8 a9) v430 v431 (k0_pay32 a1 a2 a3 a4 a5 a6 a7 a8 a9 v430) (k0_pay33 a1 a2 a3 a4 a5 a6 a7 a8 a9 v430) (k0_pay34 a1 a2 a3 a4 a5 a6 a7 a8 a9 v430)
      = fun j => MaxTempered.layer v430 v431 (fun k => (k0_pay31 a1 a2 a3 a4 a5 a6 a7 a8 a9) (ix2 (j 0) k)) (j 1) := by
  funext j
  obtain ⟨r, u, rfl⟩ : ∃ (r : Fin 64) (u : Fin 1), j = ix2 r u := ⟨j 0, j 1, eq_ix2 j⟩
  exact layer4_at a1 a2 a3 a4 a5 a6 a7 a8 a9 v430 v431 r u

end Cert.KernelIdeal.KValue

end
-- ==== Proof.KernelBody.lean ====
/-
  What the kernel's body leaves in the output block, as a function of its input blocks: the network of Spec.lean
  applied to each of the 64 rows of the input block.

  The body stores one [64, 1] block. Its value is the last layer applied to the third layer's output block, which is
  the third layer applied to the second's, and so on down to the input block; each layer acts row by row, so row `r` of
  the result is the four layers composed on row `r` of the input block.
-/
import proofs.«117809_j40312563041045_2_alg».proof.Proof.Gen.KernelIdeal.Frame
import proofs.«117809_j40312563041045_2_alg».proof.Proof.Spec
import proofs.«117809_j40312563041045_2_alg».proof.Proof.KLayer1
import proofs.«117809_j40312563041045_2_alg».proof.Proof.KLayer2
import proofs.«117809_j40312563041045_2_alg».proof.Proof.KLayer3
import proofs.«117809_j40312563041045_2_alg».proof.Proof.KLayer4
import Idealize.ShloMosaic.Lib.Pipeline.Value

noncomputable section

namespace Cert.KernelIdeal.KValue

open Idealize.ShloMosaic Idealize.ShloMosaic.ValueIdx Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a; rfl

/-- The body's result block: row `r` of the `[64, 1]` block is the network applied to row `r` of the input block. -/
theorem out_eq (x0 : Vec Ideal S64x256 .f32) (x1 : Vec Ideal S512x256 .f32) (x2 : Vec Ideal S512 .f32)
    (x3 : Vec Ideal S512x512 .f32) (x4 : Vec Ideal S512 .f32) (x5 : Vec Ideal S512x512 .f32) (x6 : Vec Ideal S512 .f32)
    (x7 : Vec Ideal S1x512 .f32) (x8 : Vec Ideal S1 .f32) :
    out0_9 (F := Ideal) x0 x1 x2 x3 x4 x5 x6 x7 x8
      = fun j => MaxTempered.net x1 x2 x3 x4 x5 x6 x7 x8 (fun k => x0 (ix2 (j 0) k)) := by
  unfold out0_9
  rw [View.canon_unit_zero hz2]
  simp only [View.ld_unit_zero (S := S64x256) hz2, View.ld_unit_zero (S := S512x256) hz2, View.ld_unit_zero (S := S512x512) hz2,
    View.ld_unit_zero (S := S1x512) hz2, View.ld_unit_zero (S := S512) hz1, View.ld_unit_zero (S := S1) hz1]
  rw [layer4_eq, layer3_eq, layer2_eq, layer1_eq]
  funext j
  obtain ⟨r, u, rfl⟩ : ∃ (r : Fin 64) (u : Fin 1), j = ix2 r u := ⟨j 0, j 1, eq_ix2 j⟩
  have hu : u = 0 := Subsingleton.elim _ _
  subst hu
  rfl

end Cert.KernelIdeal.KValue

end
-- ==== Proof.KernelRun.lean ====
/-
  The kernel program's run read as a value: its result is the four-layer network of the specification applied to each
  row of the first argument.

  The program runs one body over 16 grid points and then reshapes the `[1024, 1]` array the points wrote to `[1024]`.
  Point `t` reads rows `64 t … 64 t + 63` of the first argument and the whole of every weight and bias array, and writes
  rows `64 t … 64 t + 63` of the `[1024, 1]` array. The body's result on its blocks is the network on each of the 64 rows
  of the input block, and row `r` of that block is row `64 t + r` of the argument, so what point `t` writes is block `t`
  of ONE function `G` of the arguments: `G (n, 0)` is the network on row `n`. The 16 blocks of 64 rows tile the 1024 rows
  (row `n` lies in block `n / 64`), so the array after the points is `G`; the reshape reads entry `(j, 0)` at `j`. The
  nine arguments are inputs of every point and no later operation writes them, so they end as they started.
-/
import proofs.«117809_j40312563041045_2_alg».proof.Proof.KernelBody
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps over the 16 grid points: the input rows' window and the output's window are at block `t` on
    the row axis and block 0 on the other; every weight and bias window is at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- The input window's block at point `t` is rows `64 t … 64 t + 63` of the first argument. -/
theorem iblk0_apply (c : Dev nD) (t : Fin cfg0.N) (x : S64x256.Idx) (k : S1024x256.Idx)
    (hk0 : (k 0).val = 64 * t.val + (x 0).val) (hk1 : (k 1).val = (x 1).val) :
    (iblk m c 0 t : Vec Ideal S64x256 .f32) x = (m ((c.tc : Thread nD τ).loc main_arg0) : S1024x256.Idx → EReal) k := by
  obtain ⟨e0, e1, -⟩ := idx_facts t
  unfold iblk
  rw [View.read_apply]
  show V m c main_arg0 _ = m ((c.tc : Thread nD τ).loc main_arg0) _
  rw [V_main_arg0]
  congr 1
  funext a
  apply Fin.ext
  match a with
  | ⟨0, _⟩ => show win0_0.index t (0 : Fin 2) * 64 + 1 * (x 0).val = (k 0).val; rw [e0, hk0]; omega
  | ⟨1, _⟩ => show win0_0.index t (1 : Fin 2) * 256 + 1 * (x 1).val = (k 1).val; rw [e1, hk1]; omega

/-- The first weight matrix's window is the whole array at every point. -/
theorem iblk1_eq (c : Dev nD) (t : Fin cfg0.N) :
    (iblk m c 1 t : Vec Ideal S512x256 .f32) = (m ((c.tc : Thread nD τ).loc main_arg1) : S512x256.Idx → EReal) := by
  obtain ⟨-, -, e2, e3, -⟩ := idx_facts t
  funext x
  unfold iblk
  rw [View.read_apply]
  show V m c main_arg1 _ = m ((c.tc : Thread nD τ).loc main_arg1) _
  rw [V_main_arg1]
  congr 1
  funext a
  apply Fin.ext
  match a with
  | ⟨0, _⟩ => show win0_1.index t (0 : Fin 2) * 512 + 1 * (x 0).val = (x 0).val; rw [e2]; omega
  | ⟨1, _⟩ => show win0_1.index t (1 : Fin 2) * 256 + 1 * (x 1).val = (x 1).val; rw [e3]; omega

/-- The first bias vector's window is the whole array at every point. -/
theorem iblk2_eq (c : Dev nD) (t : Fin cfg0.N) :
    (iblk m c 2 t : Vec Ideal S512 .f32) = (m ((c.tc : Thread nD τ).loc main_arg2) : S512.Idx → EReal) := by
  obtain ⟨-, -, -, -, e4, -⟩ := idx_facts t
  funext x
  unfold iblk
  rw [View.read_apply]
  show V m c main_arg2 _ = m ((c.tc : Thread nD τ).loc main_arg2) _
  rw [V_main_arg2]
  congr 1
  funext a
  apply Fin.ext
  match a with
  | ⟨0, _⟩ => show win0_2.index t (0 : Fin 1) * 512 + 1 * (x 0).val = (x 0).val; rw [e4]; omega

/-- The second weight matrix's window is the whole array at every point. -/
theorem iblk3_eq (c : Dev nD) (t : Fin cfg0.N) :
    (iblk m c 3 t : Vec Ideal S512x512 .f32) = (m ((c.tc : Thread nD τ).loc main_arg3) : S512x512.Idx → EReal) := by
  obtain ⟨-, -, -, -, -, e5, e6, -⟩ := idx_facts t
  funext x
  unfold iblk
  rw [View.read_apply]
  show V m c main_arg3 _ = m ((c.tc : Thread nD τ).loc main_arg3) _
  rw [V_main_arg3]
  congr 1
  funext a
  apply Fin.ext
  match a with
  | ⟨0, _⟩ => show win0_3.index t (0 : Fin 2) * 512 + 1 * (x 0).val = (x 0).val; rw [e5]; omega
  | ⟨1, _⟩ => show win0_3.index t (1 : Fin 2) * 512 + 1 * (x 1).val = (x 1).val; rw [e6]; omega

/-- The second bias vector's window is the whole array at every point. -/
theorem iblk4_eq (c : Dev nD) (t : Fin cfg0.N) :
    (iblk m c 4 t : Vec Ideal S512 .f32) = (m ((c.tc : Thread nD τ).loc main_arg4) : S512.Idx → EReal) := by
  obtain ⟨-, -, -, -, -, -, -, e7, -⟩ := idx_facts t
  funext x
  unfold iblk
  rw [View.read_apply]
  show V m c main_arg4 _ = m ((c.tc : Thread nD τ).loc main_arg4) _
  rw [V_main_arg4]
  congr 1
  funext a
  apply Fin.ext
  match a with
  | ⟨0, _⟩ => show win0_4.index t (0 : Fin 1) * 512 + 1 * (x 0).val = (x 0).val; rw [e7]; omega

/-- The third weight matrix's window is the whole array at every point. -/
theorem iblk5_eq (c : Dev nD) (t : Fin cfg0.N) :
    (iblk m c 5 t : Vec Ideal S512x512 .f32) = (m ((c.tc : Thread nD τ).loc main_arg5) : S512x512.Idx → EReal) := by
  obtain ⟨-, -, -, -, -, -, -, -, e8, e9, -⟩ := idx_facts t
  funext x
  unfold iblk
  rw [View.read_apply]
  show V m c main_arg5 _ = m ((c.tc : Thread nD τ).loc main_arg5) _
  rw [V_main_arg5]
  congr 1
  funext a
  apply Fin.ext
  match a with
  | ⟨0, _⟩ => show win0_5.index t (0 : Fin 2) * 512 + 1 * (x 0).val = (x 0).val; rw [e8]; omega
  | ⟨1, _⟩ => show win0_5.index t (1 : Fin 2) * 512 + 1 * (x 1).val = (x 1).val; rw [e9]; omega

/-- The third bias vector's window is the whole array at every point. -/
theorem iblk6_eq (c : Dev nD) (t : Fin cfg0.N) :
    (iblk m c 6 t : Vec Ideal S512 .f32) = (m ((c.tc : Thread nD τ).loc main_arg6) : S512.Idx → EReal) := by
  obtain ⟨-, -, -, -, -, -, -, -, -, -, e10, -⟩ := idx_facts t
  funext x
  unfold iblk
  rw [View.read_apply]
  show V m c main_arg6 _ = m ((c.tc : Thread nD τ).loc main_arg6) _
  rw [V_main_arg6]
  congr 1
  funext a
  apply Fin.ext
  match a with
  | ⟨0, _⟩ => show win0_6.index t (0 : Fin 1) * 512 + 1 * (x 0).val = (x 0).val; rw [e10]; omega

/-- The last weight row's window is the whole array at every point. -/
theorem iblk7_eq (c : Dev nD) (t : Fin cfg0.N) :
    (iblk m c 7 t : Vec Ideal S1x512 .f32) = (m ((c.tc : Thread nD τ).loc main_arg7) : S1x512.Idx → EReal) := by
  obtain ⟨-, -, -, -, -, -, -, -, -, -, -, e11, e12, -⟩ := idx_facts t
  funext x
  unfold iblk
  rw [View.read_apply]
  show V m c main_arg7 _ = m ((c.tc : Thread nD τ).loc main_arg7) _
  rw [V_main_arg7]
  congr 1
  funext a
  apply Fin.ext
  match a with
  | ⟨0, _⟩ => show win0_7.index t (0 : Fin 2) * 1 + 1 * (x 0).val = (x 0).val; rw [e11]; omega
  | ⟨1, _⟩ => show win0_7.index t (1 : Fin 2) * 512 + 1 * (x 1).val = (x 1).val; rw [e12]; omega

/-- The last bias's window is the whole array at every point. -/
theorem iblk8_eq (c : Dev nD) (t : Fin cfg0.N) :
    (iblk m c 8 t : Vec Ideal S1 .f32) = (m ((c.tc : Thread nD τ).loc main_arg8) : S1.Idx → EReal) := by
  obtain ⟨-, -, -, -, -, -, -, -, -, -, -, -, -, e13, -⟩ := idx_facts t
  funext x
  unfold iblk
  rw [View.read_apply]
  show V m c main_arg8 _ = m ((c.tc : Thread nD τ).loc main_arg8) _
  rw [V_main_arg8]
  congr 1
  funext a
  apply Fin.ext
  match a with
  | ⟨0, _⟩ => show win0_8.index t (0 : Fin 1) * 1 + 1 * (x 0).val = (x 0).val; rw [e13]; omega

/-- Row `n` of the result: the network applied to row `n` of the first argument, with the other arguments as weights
    and biases. -/
abbrev row (c : Dev nD) (n : Fin 1024) : EReal :=
  MaxTempered.net (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (fun k => (m ((c.tc : Thread nD τ).loc main_arg0) : S1024x256.Idx → EReal) (ix2 n k))

/-- The `[1024, 1]` array the region leaves, as one function of the arguments: entry `(n, 0)` is row `n` of the result. -/
abbrev G (c : Dev nD) : Buf (Elt Ideal) ((c.tc : Thread nD τ).loc main_v0) := fun i : S1024x1.Idx => row m c (i 0)

/-- Row `r` of the input block at point `t` is row `64 t + r` of the first argument, so the network on it is that row of
    the result. -/
theorem row_block (c : Dev nD) (t : Fin cfg0.N) (r : Fin 64) (n : Fin 1024) (hn : n.val = 64 * t.val + r.val) :
    MaxTempered.net (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        (fun k => (iblk m c 0 t : Vec Ideal S64x256 .f32) (ix2 r k))
      = row m c n :=
  congrArg (MaxTempered.net (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
    (funext fun k => iblk0_apply m c t (ix2 r k) (ix2 n k) hn rfl)

/-- What point `t` writes back is block `t` of `G`: the body's result on the point's input blocks is the network on
    each of the block's 64 rows, the weight and bias blocks are the whole arrays, and row `r` of the input block is row
    `64 t + r` of the first argument — the row the output's block holds at `r`. -/
theorem flushed_eq (c : Dev nD) (t : Fin cfg0.N) :
    (dats m 0 c).flushed 9 t = ((cfg0.win 9).blk t).view.read (Elt Ideal) (G m c) := by
  obtain ⟨-, -, -, -, -, -, -, -, -, -, -, -, -, -, e14, e15⟩ := idx_facts t
  show (cfg0.win 9).cut (grid0.coords t) ((dats m 0 c).after 9 t) = _
  rw [after0_9, KValue.out_eq (iblk m c 0 t) (iblk m c 1 t) (iblk m c 2 t) (iblk m c 3 t) (iblk m c 4 t) (iblk m c 5 t) (iblk m c 6 t) (iblk m c 7 t) (iblk m c 8 t),
    iblk1_eq m c t, iblk2_eq m c t, iblk3_eq m c t, iblk4_eq m c t, iblk5_eq m c t, iblk6_eq m c t, iblk7_eq m c t, iblk8_eq m c t]
  funext j
  show MaxTempered.net (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        (fun k => (iblk m c 0 t : Vec Ideal S64x256 .f32) (ix2 (j 0) k))
      = row m c ((((cfg0.win 9).blk t).view.emb j) 0)
  refine row_block m c t (j 0) ((((cfg0.win 9).blk t).view.emb j) 0) ?_
  show win0_9.index t (0 : Fin 2) * 64 + 1 * (j 0).val = 64 * t.val + (j 0).val
  rw [e14]; omega

/-- An index of the `[1024, 1]` array is in point `t`'s block iff each coordinate is in the block's range on its axis. -/
theorem mem_blk (t : Fin cfg0.N) (i : S1024x1.Idx) :
    i ∈ ((cfg0.win 9).blk t).view.set ↔ ∀ a : Fin 2, win0_9.index t a * S64x1.size a ≤ (i a).val ∧ (i a).val < win0_9.index t a * S64x1.size a + S64x1.size a := by
  show i ∈ ((View.whole main_v0).slice (win0_9.rect t)).set ↔ _
  rw [View.set_slice_whole, Rect.mem_set_unit]
  exact Iff.rfl

/-- Every index of the array lies in the block of the point `(i 0) / 64`: the 16 blocks of 64 rows tile the 1024 rows. -/
theorem cover (i : S1024x1.Idx) : ∃ t : Fin cfg0.N, (cfg0.win 9).flush t = true ∧ i ∈ ((cfg0.win 9).blk t).view.set := by
  have hi0 : (i 0).val < 1024 := (i 0).isLt
  have hi1 : (i 1).val < 1 := (i 1).isLt
  obtain ⟨t, ht⟩ : ∃ t : Fin cfg0.N, t.val = (i 0).val / 64 := ⟨⟨(i 0).val / 64, by rw [show cfg0.N = 16 from N_0]; omega⟩, rfl⟩
  obtain ⟨-, -, -, -, -, -, -, -, -, -, -, -, -, -, e14, e15⟩ := idx_facts t
  refine ⟨t, flush0_9 t, ?_⟩
  rw [mem_blk]
  intro a
  match a with
  | ⟨0, _⟩ => show win0_9.index t (0 : Fin 2) * 64 ≤ (i 0).val ∧ (i 0).val < win0_9.index t (0 : Fin 2) * 64 + 64; rw [e14, ht]; omega
  | ⟨1, _⟩ => show win0_9.index t (1 : Fin 2) * 1 ≤ (i 1).val ∧ (i 1).val < win0_9.index t (1 : Fin 2) * 1 + 1; rw [e15]; omega

/-- The output array after the region is `G`. -/
theorem final (c : Dev nD) : (dats m 0 c).arrAt 9 cfg0.N = G m c :=
  (dats m 0 c).arrAt_eq_of_cover 9 (G m c) (fun t _ => flushed_eq m c t) cover

/-- A `[1024, 1]` array reshaped to `[1024]` holds at `j` the array's entry `(j, 0)`: both indices have the row-major
    position `j`. -/
theorem reshape_apply (g : S1024x1.Idx → EReal) (h : S1024x1.ShapeCasts S1024) (j : S1024.Idx) :
    shapeCast S1024 g h j = g (ix2 (j 0) (0 : Fin 1)) :=
  shapeCast_apply g h j (ix2 (j 0) (0 : Fin 1))
    (by rw [Shape.rowMajor_val_two, Shape.rowMajor_val_one]; show (j 0).val * 1 + 0 = (j 0).val; omega)

/-- After the region's one later operation, the reshape of the `[1024, 1]` array to `[1024]`, the result holds at `j` the
    array's entry `(j, 0)`: row `j` of the result. -/
theorem tail_eq (c : Dev nD) :
    Pipeline.afterTail₀ cfgs (dats m) 0 (V0 m) [hostOps1] c main_v1 = (fun j : S1024.Idx => row m c (j 0)) := by
  unfold Pipeline.afterTail₀
  show StableHlo.after hostOps1 _ (Proc.devRef .tc main_v1) = _
  after_results
  rw [show Pipeline.withArrays (cfgs 0).spec c (V0 m c) (fun w => (dats m 0 c).arrAt w (cfgs 0).N) (Proc.tc.devRef main_v0) = G m c from
    (Pipeline.withArrays_arr spec0 launch0.win.arr_inj c _ _ 9).trans (final m c)]
  refine funext fun (j : S1024.Idx) => ?_
  exact reshape_apply (G m c) Facts₀.shapeCasts_S1024x1_S1024 j

/-- The kernel program's run, read: the result holds at `j` the network applied to row `j` of the first argument, and
    the nine arguments are unchanged. -/
theorem run : θ_run (defs (F := Ideal)) (onTc (τ := τ) (main (F := Ideal))) ⟨m, fun _ => 0, ρ⟩ fun r => ∀ c : Dev nD,
      r.2.mem ((c.tc : Thread nD τ).loc main_v1) = (fun j => MaxTempered.net (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
          (fun k => m ((c.tc : Thread nD τ).loc main_arg0) (ix2 (j 0) k)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.KernelIdeal.RunValue

end
-- ==== Proof.RefValue.lean ====
/-
  The reference program read as the four-layer network of the specification, on the extended reals.

  Each layer of the reference is a contraction of the layer's input rows with the weight matrix, a maximum over the
  input axis of the products weight × input (both operands broadcast to a common rank-3 grid, the maximum taken from
  -∞), the combination `c₁ · sum + c₂ · maximum` with the two broadcast constants, and the bias broadcast along the rows.
  Read at row `n` and output `o`, the contraction is `∑ k, input (n, k) · weight (o, k)`, the maximum is the maximum over
  `k` of `weight (o, k) · input (n, k)`, and the bias is `bias o`: the value is the specification's unit on row `n` of the
  layer's input, row `o` of the weights and entry `o` of the bias. The layer's input is the previous layer's output, so
  the four layers compose to the specification's network on row `n` of the first input; the final reshape of the
  `[1024, 1]` result to `[1024]` reads entry `(j, 0)` at `j`.
-/
import proofs.«117809_j40312563041045_2_alg».proof.Proof.Gen.ReferenceIdeal.Read
import proofs.«117809_j40312563041045_2_alg».proof.Proof.Spec
import proofs.«117809_j40312563041045_2_alg».proof.Proof.LibMaxLayout
import Idealize.ShloMosaic.Lib.ValueIdx

noncomputable section

namespace Cert.ReferenceIdeal.RefValue

open Idealize.ShloMosaic Idealize.ShloMosaic.ValueIdx Cert.ReferenceIdeal Cert.ReferenceIdeal.Read TropicalMax

/-- Two rank-2 indices with the same coordinates are equal. -/
theorem idx2_ext {m n : ℕ} {p q : (⟨2, ![m, n]⟩ : Shape).Idx} (h0 : (p 0).val = (q 0).val) (h1 : (p 1).val = (q 1).val) :
    p = q :=
  funext fun a => Fin.ext (by match a with | ⟨0, _⟩ => exact h0 | ⟨1, _⟩ => exact h1)

/-- Two rank-1 indices with the same coordinate are equal. -/
theorem idx1_ext {n : ℕ} {p q : (⟨1, ![n]⟩ : Shape).Idx} (h0 : (p 0).val = (q 0).val) : p = q :=
  funext fun a => Fin.ext (by match a with | ⟨0, _⟩ => exact h0)

/-- A unit's value depends on its weighted sum and on its bias only through their values. -/
theorem unit_congr {c₁ c₂ s s' m b b' : EReal} (hs : s = s') (hb : b = b') : c₁ * s + c₂ * m + b = c₁ * s' + c₂ * m + b' := by
  rw [hs, hb]

/-! ## First layer: 256 inputs, 512 outputs -/

/-- The maximum stage of the first layer holds, at row `n` and output `o`, the maximum over `k` of weight `(o, k)` times
    input `(n, k)`: the two broadcasts place the weight matrix and the input rows on a common `[1024, 512, 256]` grid. -/
theorem max1 (x0 : (⟨S1024x256, .f32⟩ : BufTy).Contents (Elt Ideal)) (x1 : (⟨S512x256, .f32⟩ : BufTy).Contents (Elt Ideal))
    (n : Fin 1024) (o : Fin 512) :
    val_main_v6 (F := Ideal) x0 x1 (ix2 n o) = tmax fun k : Fin 256 => x1 (ix2 o k) * x0 (ix2 n k) := by
  unfold val_main_v6 val_main_cst
  refine (MaxLayout.hostReduce_max_last_apply (val_main_v5 (F := Ideal) x0 x1) Facts₀.reducesTo_S1024x512x256_S1024x512_d2
    ⟨Facts₀.reducesTo_S1024x512x256_S1024x512_d2.1, Nat.succ_pos _, Facts₀.reducesTo_S1024x512x256_S1024x512_d2.2⟩ Facts₀.h_S_ n o).trans
    (tmax_congr fun k => ?_)
  rw [val_main_v5_apply, val_main_v3_apply, val_main_v1_apply, val_main_v4_apply, val_main_v2_apply, Ideal.mulf_def]
  exact congrArg₂ (· * ·) (congrArg x1 (idx2_ext rfl rfl)) (congrArg x0 (idx2_ext rfl rfl))

/-- The first layer's output at row `n` is the specification's layer applied to row `n` of the input. -/
theorem layer1 (x0 : (⟨S1024x256, .f32⟩ : BufTy).Contents (Elt Ideal)) (x1 : (⟨S512x256, .f32⟩ : BufTy).Contents (Elt Ideal)) (x2 : (⟨S512, .f32⟩ : BufTy).Contents (Elt Ideal))
    (n : Fin 1024) (o : Fin 512) :
    val_main_v14 (F := Ideal) x0 x1 x2 (ix2 n o) = MaxTempered.layer x1 x2 (fun k => x0 (ix2 n k)) o := by
  rw [val_main_v14_apply, val_main_v11_apply, val_main_v8_apply, val_main_v10_apply, val_main_v13_apply, val_main_v12_apply,
    val_main_v7_apply, val_main_v9_apply, val_main_cst_0_apply, val_main_cst_1_apply, val_main_v0_apply, max1]
  unfold MaxTempered.layer MaxTempered.unit
  simp only [Ideal.mulf_def, Ideal.addf_def, Ideal.ofBits_def]
  refine unit_congr (Finset.sum_congr rfl fun k _ => ?_) (congrArg x2 (idx1_ext rfl))
  exact congrArg₂ (· * ·) (congrArg x0 (idx2_ext rfl rfl)) (congrArg x1 (idx2_ext rfl rfl))

/-! ## Second layer: 512 inputs (the first layer's outputs), 512 outputs -/

/-- The maximum stage of the second layer: the maximum over `k` of weight `(o, k)` times the first layer's output `(n, k)`. -/
theorem max2 (x0 : (⟨S1024x256, .f32⟩ : BufTy).Contents (Elt Ideal)) (x1 : (⟨S512x256, .f32⟩ : BufTy).Contents (Elt Ideal)) (x2 : (⟨S512, .f32⟩ : BufTy).Contents (Elt Ideal)) (x3 : (⟨S512x512, .f32⟩ : BufTy).Contents (Elt Ideal))
    (n : Fin 1024) (o : Fin 512) :
    val_main_v21 (F := Ideal) x0 x1 x2 x3 (ix2 n o)
      = tmax fun k : Fin 512 => x3 (ix2 o k) * val_main_v14 (F := Ideal) x0 x1 x2 (ix2 n k) := by
  unfold val_main_v21 val_main_cst_2
  refine (MaxLayout.hostReduce_max_last_apply (val_main_v20 (F := Ideal) x0 x1 x2 x3) Facts₀.reducesTo_S1024x512x512_S1024x512_d2
    ⟨Facts₀.reducesTo_S1024x512x512_S1024x512_d2.1, Nat.succ_pos _, Facts₀.reducesTo_S1024x512x512_S1024x512_d2.2⟩ Facts₀.h_S_ n o).trans
    (tmax_congr fun k => ?_)
  rw [val_main_v20_apply, val_main_v18_apply, val_main_v16_apply, val_main_v19_apply, val_main_v17_apply, Ideal.mulf_def]
  exact congrArg₂ (· * ·) (congrArg x3 (idx2_ext rfl rfl)) (congrArg (val_main_v14 (F := Ideal) x0 x1 x2) (idx2_ext rfl rfl))

/-- The second layer's output at row `n` is the specification's layer applied to row `n` of the first layer's output. -/
theorem layer2 (x0 : (⟨S1024x256, .f32⟩ : BufTy).Contents (Elt Ideal)) (x1 : (⟨S512x256, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal))
    (n : Fin 1024) (o : Fin 512) :
    val_main_v29 (F := Ideal) x0 x1 x2 x3 x4 (ix2 n o)
      = MaxTempered.layer x3 x4 (fun k => val_main_v14 (F := Ideal) x0 x1 x2 (ix2 n k)) o := by
  rw [val_main_v29_apply, val_main_v26_apply, val_main_v23_apply, val_main_v25_apply, val_main_v28_apply, val_main_v27_apply,
    val_main_v22_apply, val_main_v24_apply, val_main_cst_3_apply, val_main_cst_4_apply, val_main_v15_apply, max2]
  unfold MaxTempered.layer MaxTempered.unit
  simp only [Ideal.mulf_def, Ideal.addf_def, Ideal.ofBits_def]
  refine unit_congr (Finset.sum_congr rfl fun k _ => ?_) (congrArg x4 (idx1_ext rfl))
  exact congrArg₂ (· * ·) (congrArg (val_main_v14 (F := Ideal) x0 x1 x2) (idx2_ext rfl rfl)) (congrArg x3 (idx2_ext rfl rfl))

/-! ## Third layer: 512 inputs (the second layer's outputs), 512 outputs -/

/-- The maximum stage of the third layer: the maximum over `k` of weight `(o, k)` times the second layer's output `(n, k)`. -/
theorem max3 (x0 : (⟨S1024x256, .f32⟩ : BufTy).Contents (Elt Ideal)) (x1 : (⟨S512x256, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal))
    (n : Fin 1024) (o : Fin 512) :
    val_main_v36 (F := Ideal) x0 x1 x2 x3 x4 x5 (ix2 n o)
      = tmax fun k : Fin 512 => x5 (ix2 o k) * val_main_v29 (F := Ideal) x0 x1 x2 x3 x4 (ix2 n k) := by
  unfold val_main_v36 val_main_cst_5
  refine (MaxLayout.hostReduce_max_last_apply (val_main_v35 (F := Ideal) x0 x1 x2 x3 x4 x5) Facts₀.reducesTo_S1024x512x512_S1024x512_d2
    ⟨Facts₀.reducesTo_S1024x512x512_S1024x512_d2.1, Nat.succ_pos _, Facts₀.reducesTo_S1024x512x512_S1024x512_d2.2⟩ Facts₀.h_S_ n o).trans
    (tmax_congr fun k => ?_)
  rw [val_main_v35_apply, val_main_v33_apply, val_main_v31_apply, val_main_v34_apply, val_main_v32_apply, Ideal.mulf_def]
  exact congrArg₂ (· * ·) (congrArg x5 (idx2_ext rfl rfl)) (congrArg (val_main_v29 (F := Ideal) x0 x1 x2 x3 x4) (idx2_ext rfl rfl))

/-- The third layer's output at row `n` is the specification's layer applied to row `n` of the second layer's output. -/
theorem layer3 (x0 : (⟨S1024x256, .f32⟩ : BufTy).Contents (Elt Ideal)) (x1 : (⟨S512x256, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal))
    (n : Fin 1024) (o : Fin 512) :
    val_main_v44 (F := Ideal) x0 x1 x2 x3 x4 x5 x6 (ix2 n o)
      = MaxTempered.layer x5 x6 (fun k => val_main_v29 (F := Ideal) x0 x1 x2 x3 x4 (ix2 n k)) o := by
  rw [val_main_v44_apply, val_main_v41_apply, val_main_v38_apply, val_main_v40_apply, val_main_v43_apply, val_main_v42_apply,
    val_main_v37_apply, val_main_v39_apply, val_main_cst_6_apply, val_main_cst_7_apply, val_main_v30_apply, max3]
  unfold MaxTempered.layer MaxTempered.unit
  simp only [Ideal.mulf_def, Ideal.addf_def, Ideal.ofBits_def]
  refine unit_congr (Finset.sum_congr rfl fun k _ => ?_) (congrArg x6 (idx1_ext rfl))
  exact congrArg₂ (· * ·) (congrArg (val_main_v29 (F := Ideal) x0 x1 x2 x3 x4) (idx2_ext rfl rfl)) (congrArg x5 (idx2_ext rfl rfl))

/-! ## Fourth layer: 512 inputs (the third layer's outputs), one output -/

/-- The maximum stage of the last layer: the maximum over `k` of weight `(0, k)` times the third layer's output `(n, k)`. -/
theorem max4 (x0 : (⟨S1024x256, .f32⟩ : BufTy).Contents (Elt Ideal)) (x1 : (⟨S512x256, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S1x512, .f32⟩ : BufTy).Contents (Elt Ideal))
    (n : Fin 1024) :
    val_main_v50 (F := Ideal) x0 x1 x2 x3 x4 x5 x6 x7 (ix2 n (0 : Fin 1))
      = tmax fun k : Fin 512 => x7 (ix2 (0 : Fin 1) k) * val_main_v44 (F := Ideal) x0 x1 x2 x3 x4 x5 x6 (ix2 n k) := by
  unfold val_main_v50 val_main_cst_8
  refine (MaxLayout.hostReduce_max_last_apply (val_main_v49 (F := Ideal) x0 x1 x2 x3 x4 x5 x6 x7) Facts₀.reducesTo_S1024x1x512_S1024x1_d2
    ⟨Facts₀.reducesTo_S1024x1x512_S1024x1_d2.1, Nat.succ_pos _, Facts₀.reducesTo_S1024x1x512_S1024x1_d2.2⟩ Facts₀.h_S_ n (0 : Fin 1)).trans
    (tmax_congr fun k => ?_)
  rw [val_main_v49_apply, val_main_v48_apply, val_main_v46_apply, val_main_v47_apply, Ideal.mulf_def]
  exact congrArg₂ (· * ·) (congrArg x7 (idx2_ext rfl rfl)) (congrArg (val_main_v44 (F := Ideal) x0 x1 x2 x3 x4 x5 x6) (idx2_ext rfl rfl))

/-- The last layer's one output at row `n` is the specification's layer applied to row `n` of the third layer's output. -/
theorem layer4 (x0 : (⟨S1024x256, .f32⟩ : BufTy).Contents (Elt Ideal)) (x1 : (⟨S512x256, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S1x512, .f32⟩ : BufTy).Contents (Elt Ideal)) (x8 : (⟨S1, .f32⟩ : BufTy).Contents (Elt Ideal))
    (n : Fin 1024) :
    val_main_v58 (F := Ideal) x0 x1 x2 x3 x4 x5 x6 x7 x8 (ix2 n (0 : Fin 1))
      = MaxTempered.layer x7 x8 (fun k => val_main_v44 (F := Ideal) x0 x1 x2 x3 x4 x5 x6 (ix2 n k)) 0 := by
  rw [val_main_v58_apply, val_main_v55_apply, val_main_v52_apply, val_main_v54_apply, val_main_v57_apply, val_main_v56_apply,
    val_main_v51_apply, val_main_v53_apply, val_main_cst_9_apply, val_main_cst_10_apply, val_main_v45_apply, max4]
  unfold MaxTempered.layer MaxTempered.unit
  simp only [Ideal.mulf_def, Ideal.addf_def, Ideal.ofBits_def]
  refine unit_congr (Finset.sum_congr rfl fun k _ => ?_) (congrArg x8 (idx1_ext rfl))
  exact congrArg₂ (· * ·) (congrArg (val_main_v44 (F := Ideal) x0 x1 x2 x3 x4 x5 x6) (idx2_ext rfl rfl)) (congrArg x7 (idx2_ext rfl rfl))

/-! ## The whole reference -/

/-- The reference's result at `j` is the four-layer network applied to row `j` of the input: the final reshape reads
    the last layer's `[1024, 1]` output at `(j, 0)`, and each layer's input row is the previous layer's output row. -/
theorem ref_eq (x0 : (⟨S1024x256, .f32⟩ : BufTy).Contents (Elt Ideal)) (x1 : (⟨S512x256, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S1x512, .f32⟩ : BufTy).Contents (Elt Ideal)) (x8 : (⟨S1, .f32⟩ : BufTy).Contents (Elt Ideal)) :
    val_main_v59 (F := Ideal) x0 x1 x2 x3 x4 x5 x6 x7 x8
      = fun j => MaxTempered.net x1 x2 x3 x4 x5 x6 x7 x8 (fun k => x0 (ix2 (j 0) k)) := by
  funext j
  obtain ⟨n, rfl⟩ : ∃ n : Fin 1024, j = ix1 n := ⟨j 0, eq_ix1 j⟩
  show val_main_v59 (F := Ideal) x0 x1 x2 x3 x4 x5 x6 x7 x8 (ix1 n)
    = MaxTempered.net x1 x2 x3 x4 x5 x6 x7 x8 (fun k => x0 (ix2 n k))
  rw [val_main_v59_apply, show idx_main_v59 (ix1 n) = ix2 n (0 : Fin 1) from idx2_ext (Nat.div_one _) rfl, layer4]
  unfold MaxTempered.net
  refine congrArg (fun h => MaxTempered.layer x7 x8 h 0) (funext fun k₃ => ?_)
  rw [layer3]
  refine congrArg (fun h => MaxTempered.layer x5 x6 h k₃) (funext fun k₂ => ?_)
  rw [layer2]
  refine congrArg (fun h => MaxTempered.layer x3 x4 h k₂) (funext fun k₁ => ?_)
  exact layer1 x0 x1 x2 n k₁

end Cert.ReferenceIdeal.RefValue

end
-- ==== Proof.lean ====
/-
  The claim: the kernel program and the reference program compute one function on the extended reals, and each
  program's run leaves its arguments unchanged.

  Both programs apply four layers to each row of the batch; a unit of a layer is `c₁ · (∑ products) + c₂ · (max of the
  products) + bias`. The reference takes the maximum over the whole input axis at once and the kernel as a running
  maximum over consecutive chunks of it, started from -∞: these agree, since a running maximum over chunks that
  partition the index range has the same upper bounds as the maximum over the range. The kernel's narrowing and
  widening casts are the identity on the extended reals.
  The rows of the batch are independent, so a block of 64 rows computes 64 rows of the reference's result, the 16
  blocks tile the 1024 rows, and the final reshape reads the same entries in both programs.
-/
import proofs.«117809_j40312563041045_2_alg».proof.Defs
import proofs.«117809_j40312563041045_2_alg».proof.Proof.Gen.Kernel
import proofs.«117809_j40312563041045_2_alg».proof.Proof.Gen.Kernel.Skeleton
import proofs.«117809_j40312563041045_2_alg».proof.Proof.Gen.Kernel.Launch
import proofs.«117809_j40312563041045_2_alg».proof.Proof.Gen.Kernel.Points
import proofs.«117809_j40312563041045_2_alg».proof.Proof.Gen.Kernel.Frame
import proofs.«117809_j40312563041045_2_alg».proof.Proof.Gen.KernelIdeal
import proofs.«117809_j40312563041045_2_alg».proof.Proof.Gen.KernelIdeal.Skeleton
import proofs.«117809_j40312563041045_2_alg».proof.Proof.Gen.KernelIdeal.Launch
import proofs.«117809_j40312563041045_2_alg».proof.Proof.Gen.KernelIdeal.Points
import proofs.«117809_j40312563041045_2_alg».proof.Proof.Gen.KernelIdeal.Frame
import proofs.«117809_j40312563041045_2_alg».proof.Proof.Gen.ReferenceIdeal
import proofs.«117809_j40312563041045_2_alg».proof.Proof.Gen.ReferenceIdeal.Run
import proofs.«117809_j40312563041045_2_alg».proof.Proof.Gen.ReferenceIdeal.Read
import proofs.«117809_j40312563041045_2_alg».proof.Proof.Gen.Pre_finite_inputs
import proofs.«117809_j40312563041045_2_alg».proof.Proof.KernelRun
import proofs.«117809_j40312563041045_2_alg».proof.Proof.RefValue
import Idealize.ShloMosaic.Adequacy
import Idealize.ShloMosaic.Init

noncomputable section

namespace Cert.Proof

open Idealize.ShloMosaic Idealize.SL.Sem

/-- The bit-exact kernel program runs and leaves its arguments unchanged. -/
theorem frame_kernel : Cert.frame_Kernel := fun m ρ _ => Cert.Kernel.Gen.frame m ρ

/-- The kernel program on the extended reals runs and leaves its arguments unchanged. -/
theorem frame_kernelIdeal : Cert.frame_KernelIdeal := fun m ρ _ => Cert.KernelIdeal.Gen.frame m ρ

/-- The reference program on the extended reals runs and leaves its arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments, both programs end with the result at the network applied to each
    row of the first argument: the kernel's run read as that value, the reference's stages composed to the same
    network of its own arguments, and the arguments agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v59_eq, Cert.ReferenceIdeal.RefValue.ref_eq, h0, h1, h2, h3, h4, h5, h6, h7, h8]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
